-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v62)) (v1 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_v60) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S20000x128 : Shape := ⟨2, ![20000, 128]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S20000x128 : S_.BroadcastsInDim S20000x128 (![] : Fin 0 → Fin S20000x128.rank)
  reducesTo_S20000x128_S_d0_1 : S20000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S128x128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_v33

def fn {F : FTy → Type} [FloatOps F] (main_arg0 : FVec F S50000x128 .f32) (main_arg1 : IVec S2x800000 32) (main_arg2 : FVec F S20000x128 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S20000x128 .f32 := Host.absf main_arg2
  let main_cst_0 : FVec F S_ .f32 := constant S_ .f32 0x7F800000#32
  let main_v5 : FVec F S20000x128 .f32 := broadcastInDim S20000x128 ![] bcast_S_S20000x128 main_cst_0
  let main_v6 : IVec S20000x128 1 := cmpf .olt main_v4 main_v5
  let main_c_1 : IVec S_ 1 := constantI S_ 1 1#1
  let main_v7 : IVec S_ 1 := (fun x v => Host.reduce IntOp.andi x v reducesTo_S20000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S50000x128 : Shape := ⟨2, ![50000, 128]⟩
abbrev S2x800000 : Shape := ⟨2, ![2, 800000]⟩
abbrev S20000x128 : Shape := ⟨2, ![20000, 128]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S4000x128 : Shape := ⟨2, ![4000, 128]⟩

abbrev nBuf : Space → Nat
  | .hbm => 88
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S20000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S50000, .i32⟩
  | .hbm, ⟨14, _⟩ => ⟨S850000, .i32⟩
  | .hbm, ⟨15, _⟩ => ⟨S850000, .i32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x128, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x128, .f32⟩
  | .hbm, ⟨59, _⟩ => ⟨S850000x1, .f32⟩
  | .hbm, ⟨60, _⟩ => ⟨S850000x128, .f32⟩
  | .hbm, ⟨61, _⟩ => ⟨S850000x128, .f32⟩
  | .hbm, ⟨62, _⟩ => ⟨S_, .f32⟩
  | .hbm, ⟨63, _⟩ => ⟨S50000x128, .f32⟩
  | .hbm, ⟨64, _⟩ => ⟨S850000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S_, .i32⟩
  | .hbm, ⟨69, _⟩ => ⟨S850000, .i32⟩
  | .hbm, ⟨70, _⟩ => ⟨S850000, .i1⟩
  | .hbm, ⟨71, _⟩ => ⟨S_, .i32⟩
  | .hbm, ⟨72, _⟩ => ⟨S850000, .i32⟩
  | .hbm, ⟨73, _⟩ => ⟨S850000, .i32⟩
  | .hbm, ⟨74, _⟩ => ⟨S850000, .i32⟩
  | .hbm, ⟨75, _⟩ => ⟨S850000x1, .i32⟩
  | .hbm, ⟨76, _⟩ => ⟨S850000x128, .f32⟩
  | .hbm, ⟨77, _⟩ => ⟨S850000x1, .f32⟩
  | .hbm, ⟨78, _⟩ => ⟨S850000x128, .f32⟩
  | .hbm, ⟨79, _⟩ => ⟨S850000x128, .f32⟩
  | .hbm, ⟨80, _⟩ => ⟨S_, .f32⟩
  | .hbm, ⟨81, _⟩ => ⟨S50000x128, .f32⟩
  | .hbm, ⟨82, _⟩ => ⟨S850000x1, .i32⟩
  | .hbm, ⟨83, _⟩ => ⟨S50000x128, .f32⟩
  | .hbm, ⟨84, _⟩ => ⟨S1x128, .f32⟩
  | .hbm, ⟨85, _⟩ => ⟨S50000x128, .f32⟩
  | .hbm, ⟨86, _⟩ => ⟨S1x128, .f32⟩
  | .hbm, ⟨87, _⟩ => ⟨S20000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S4000x128, .f32⟩
  | .local _ .vmem, ⟨17, _⟩ => ⟨S4000x128, .f32⟩
  | .local _ .vmem, ⟨18, _⟩ => ⟨S128x128, .f32⟩
  | .local _ .vmem, ⟨19, _⟩ => ⟨S1x128, .f32⟩
  | .local _ .vmem, ⟨20, _⟩ => ⟨S4000x128, .f32⟩
  | .local _ .vmem, ⟨21, _⟩ => ⟨S4000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_9 : Ref sig .tc := ⟨.hbm, 68, rfl⟩
abbrev main_v46 : Ref sig .tc := ⟨.hbm, 69, rfl⟩
abbrev main_v47 : Ref sig .tc := ⟨.hbm, 70, rfl⟩
abbrev main_c_10 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S4000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S4000x128_S4000x128_0_0 : ∀ a, (![0, 0] : Fin 2 → Nat) a + S4000x128.size a ≤ S4000x128.size a
  h_S4000x128 : 0 < S4000x128.numel
  broadcasts_S1x128_S4000x128 : S1x128.Broadcasts S4000x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S20000x128.size a
  hwx3_0 : ∀ i : grid3.Coords, EltTy.bits .f32 = 32 ∨ (Rect.block (s := S20000x128) S4000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x128.size a ≤ S20000x128.size a
  hwx3_3 : ∀ i : grid3.Coords, EltTy.bits .f32 = 32 ∨ (Rect.block (s := S20000x128) S4000x128.size (cc3_transform_3 i) (hinb3_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg2) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v62) S4000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S20000x128 : Shape := ⟨2, ![20000, 128]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 132
  | .vmem => 0
  | .smem => 0
  | _ => 0

abbrev hbmTy0_0 (i : Nat) : BufTy := match i % 128 with
  | 0 => ⟨S50000x128, .f32⟩
  | 1 => ⟨S2x800000, .i32⟩
  | 2 => ⟨S20000x128, .f32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S1x800000, .i32⟩
  | 10 => ⟨S800000, .i32⟩
  | 11 => ⟨S1x800000, .i32⟩
  | 12 => ⟨S800000, .i32⟩
  | 13 => ⟨S50000x128, .f32⟩
  | 14 => ⟨S50000, .i32⟩
  | 15 => ⟨S850000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x128, .f32⟩
  | 59 => ⟨S850000x1, .f32⟩
  | 60 => ⟨S850000x128, .f32⟩
  | 61 => ⟨S850000x128, .f32⟩
  | 62 => ⟨S_, .f32⟩
  | 63 => ⟨S50000x128, .f32⟩
  | 64 => ⟨S850000x1, .i32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S50000x128, .f32⟩
  | 73 => ⟨S50000, .i32⟩
  | 74 => ⟨S850000, .i32⟩
  | 75 => ⟨S850000, .i32⟩
  | 76 => ⟨S_, .f32⟩
  | 77 => ⟨S850000, .f32⟩
  | 78 => ⟨S_, .f32⟩
  | 79 => ⟨S50000, .f32⟩
  | 80 => ⟨S850000x1, .i32⟩
  | 81 => ⟨S50000, .f32⟩
  | 82 => ⟨S_, .f32⟩
  | 83 => ⟨S50000, .f32⟩
  | 84 => ⟨S50000, .i1⟩
  | 85 => ⟨S50000, .f32⟩
  | 86 => ⟨S_, .f32⟩
  | 87 => ⟨S_, .f32⟩
  | 88 => ⟨S50000, .f32⟩
  | 89 => ⟨S50000, .f32⟩
  | 90 => ⟨S_, .i32⟩
  | 91 => ⟨S850000, .i32⟩
  | 92 => ⟨S850000, .i1⟩
  | 93 => ⟨S_, .i32⟩
  | 94 => ⟨S850000, .i32⟩
  | 95 => ⟨S850000, .i32⟩
  | 96 => ⟨S850000, .i32⟩
  | 97 => ⟨S850000x1, .i32⟩
  | 98 => ⟨S850000, .f32⟩
  | 99 => ⟨S_, .i32⟩
  | 100 => ⟨S850000, .i32⟩
  | 101 => ⟨S850000, .i1⟩
  | 102 => ⟨S_, .i32⟩
  | 103 => ⟨S850000, .i32⟩
  | 104 => ⟨S850000, .i32⟩
  | 105 => ⟨S850000, .i32⟩
  | 106 => ⟨S850000x1, .i32⟩
  | 107 => ⟨S850000, .f32⟩
  | 108 => ⟨S850000, .f32⟩
  | 109 => ⟨S_, .i32⟩
  | 110 => ⟨S850000, .i32⟩
  | 111 => ⟨S850000, .i1⟩
  | 112 => ⟨S_, .i32⟩
  | 113 => ⟨S850000, .i32⟩
  | 114 => ⟨S850000, .i32⟩
  | 115 => ⟨S850000, .i32⟩
  | 116 => ⟨S850000x1, .i32⟩
  | 117 => ⟨S850000x128, .f32⟩
  | 118 => ⟨S850000x1, .f32⟩
  | 119 => ⟨S850000x128, .f32⟩
  | 120 => ⟨S850000x128, .f32⟩
  | 121 => ⟨S_, .f32⟩
  | 122 => ⟨S50000x128, .f32⟩
  | 123 => ⟨S850000x1, .i32⟩
  | 124 => ⟨S50000x128, .f32⟩
  | 125 => ⟨S1x128, .f32⟩
  | 126 => ⟨S50000x128, .f32⟩
  | 127 => ⟨S50000x128, .f32⟩
  | _ => ⟨S50000x128, .f32⟩

abbrev hbmTy0_1 (i : Nat) : BufTy := match i % 128 with
  | 0 => ⟨S20000x128, .f32⟩
  | 1 => ⟨S1x128, .f32⟩
  | 2 => ⟨S20000x128, .f32⟩
  | 3 => ⟨S20000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_9 : Ref sig .tc := ⟨.hbm, 76, rfl⟩
abbrev main_v52 : Ref sig .tc := ⟨.hbm, 77, rfl⟩
abbrev main_cst_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_11 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v59 : Ref sig .tc := ⟨.hbm, 89, rfl⟩
abbrev main_c_13 : Ref sig .tc := ⟨.hbm, 90, rfl⟩
abbrev main_v60 : Ref sig .tc := ⟨.hbm, 91, rfl⟩
abbrev main_v61 : Ref sig .tc := ⟨.hbm, 92, rfl⟩
abbrev main_c_14 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_c_15 : Ref sig .tc := ⟨.hbm, 99, rfl⟩
abbrev main_v67 : Ref sig .tc := ⟨.hbm, 100, rfl⟩
abbrev main_v68 : Ref sig .tc := ⟨.hbm, 101, rfl⟩
abbrev main_c_16 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_c_17 : Ref sig .tc := ⟨.hbm, 109, rfl⟩
abbrev main_v75 : Ref sig .tc := ⟨.hbm, 110, rfl⟩
abbrev main_v76 : Ref sig .tc := ⟨.hbm, 111, rfl⟩
abbrev main_c_18 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_19 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1x128_S20000x128_0_1 : S1x128.BroadcastsInDim S20000x128 (![0, 1] : Fin 2 → Fin S20000x128.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S20000x128_S128x128_S20000x128_1_0_0_1_n_n_wf : DotDims.WF S20000x128 S128x128 S20000x128 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf

class Facts : Prop extends Facts₀ where

variable [Facts]
-- ==== Proof.KernelRun.lean ====
/-
  The kernel program's run, read at its two result arrays.

  The program is ten segments in a row: host operations, the first matrix-product region, host operations (the first
  aggregation), the second region, host operations (the second aggregation), the bias region, one reshape, the query
  region. Between segments every buffer has definite contents, `W0` at the launch up to `W10` at the return: a stretch of
  host operations maps the contents before it to the contents after it by its operations' results, and a region leaves
  each of its arrays at what its write-backs make of it and every other buffer alone. The launch theorem for a program
  of several regions runs the segments in order: every weakly fair execution terminates, nothing faults, and the final
  memory is `W10` at every buffer that outlives a region. Read at the two result buffers and at the nine arguments
  (which no segment writes), that is the statement below.
-/
import proofs.«107165_j16776142258488_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the query result and the node result end at the last
    boundary's contents, and the arguments as launched. -/
theorem run_results : θ_run defs (onTc (τ := τ) (main (F := F))) ⟨m, fun _ => 0, ρ⟩ (fun r => ∀ c : Dev nD,
      r.2.mem ((c.tc : Thread nD τ).loc main_v62) = V10 m ρ c main_v62
      ∧ r.2.mem ((c.tc : Thread nD τ).loc main_v60) = V10 m ρ c main_v60
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v62 (by decide)),
       h c _ (mem_uc main_v60 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c)⟩)

end Cert.KernelIdeal.Whole

end
-- ==== Proof.Spec.lean ====
/-
  The function both programs compute, written once over whole arrays.

  A two-layer graph convolution with symmetric normalisation, beside an independent affine map of the queries:

    s, d      the edge list's sources and targets, each followed by the self-loops 0 … 49999
    deg v     the number of list entries whose target is v            (a scatter-add of ones)
    dinv v    deg v ^ (-1/2) where deg v > 0, and 0 elsewhere
    norm j    dinv (s j) · dinv (d j)
    agg h     the array whose row v is the sum over the entries j with d j = v of norm j · h[s j]
    layer 1   relu (agg (x · W1) + b1)
    layer 2   agg (layer 1 · W2) + b2
    queries   q · Wq + bq

  Every operation is the host operation of that name on the extended reals, so the definitions below are at once the
  reference's own text and a statement one can read. Nothing here is opened by the proofs that follow except the three
  matrix products and the two row-bias broadcasts; the gather / scatter part is carried through untouched on both sides.
-/
import proofs.«107165_j16776142258488_1_alg».proof.Proof.Gen.ReferenceIdeal
import Idealize.ShloMosaic.PureOps.Ideal

noncomputable section

namespace Cert.Gcn

open Cert.ReferenceIdeal Cert.ReferenceIdeal.Gen Idealize.ShloMosaic

variable {F : FTy → Type} [FloatOps F]

/-- Node features, 50000 rows of 128. -/
abbrev Nodes (F : FTy → Type) := (⟨S50000x128, .f32⟩ : BufTy).Contents (Elt F)
/-- Query features, 20000 rows of 128. -/
abbrev Queries (F : FTy → Type) := (⟨S20000x128, .f32⟩ : BufTy).Contents (Elt F)
/-- A 128 × 128 weight matrix. -/
abbrev Mat (F : FTy → Type) := (⟨S128x128, .f32⟩ : BufTy).Contents (Elt F)
/-- A bias vector of 128 entries. -/
abbrev Bias (F : FTy → Type) := (⟨S128, .f32⟩ : BufTy).Contents (Elt F)
/-- The edge list: row 0 the sources, row 1 the targets. -/
abbrev Edges (F : FTy → Type) := (⟨S2x800000, .i32⟩ : BufTy).Contents (Elt F)
/-- One integer per list entry (the 800000 edges, then the 50000 self-loops). -/
abbrev EntryIdx (F : FTy → Type) := (⟨S850000, .i32⟩ : BufTy).Contents (Elt F)
/-- One weight per list entry. -/
abbrev EntryWt (F : FTy → Type) := (⟨S850000, .f32⟩ : BufTy).Contents (Elt F)

/-- One integer per edge (the 800000 list entries before the self-loops). -/
abbrev EdgeIdx (F : FTy → Type) := (⟨S800000, .i32⟩ : BufTy).Contents (Elt F)

/-- Row 0 of the edge list: the edges' sources. -/
def row0 (e : Edges F) : EdgeIdx F :=
  shapeCast _ (extractStridedSlice S1x800000 ![0, 0] e slices_S2x800000_S1x800000_0_0) shapeCasts_S1x800000_S800000

/-- Row 1 of the edge list: the edges' targets. -/
def row1 (e : Edges F) : EdgeIdx F :=
  shapeCast _ (extractStridedSlice S1x800000 ![1, 0] e slices_S2x800000_S1x800000_1_0) shapeCasts_S1x800000_S800000

/-- The edges' ends followed by the self-loops' ends 0 … 49999. -/
def withLoops (r : EdgeIdx F) : EntryIdx F :=
  concatenate S850000 0 [⟨S800000, r⟩, ⟨S50000, (iotaInDim S50000 32 0)⟩] concatenates_S800000_S50000_S850000_d0

/-- The sources: row 0 of the edge list, then 0 … 49999. -/
def src (e : Edges F) : EntryIdx F := withLoops (row0 e)

/-- The targets: row 1 of the edge list, then 0 … 49999. -/
def dst (e : Edges F) : EntryIdx F := withLoops (row1 e)

/-- A negative index counts from the end: i + 50000 where i < 0, i elsewhere. -/
def wrap (i : EntryIdx F) : EntryIdx F :=
  select (cmpi .slt i (broadcastInDim S850000 ![] bcast_S_S850000 (constantI S_ 32 0#32))) (addi i (broadcastInDim S850000 ![] bcast_S_S850000 (constantI S_ 32 50000#32))) i

/-- The degree of every node: ones added up at the targets. -/
def degOf (d : EntryIdx F) : (⟨S50000, .f32⟩ : BufTy).Contents (Elt F) :=
  Host.scatterAdd scatter_S50000_S850000x1_S850000_n_0_0_1 (broadcastInDim S50000 ![] bcast_S_S50000 (constant S_ .f32 0x00000000#32)) (broadcastInDim S850000x1 ![0] bcast_S850000_S850000x1_0 d) (broadcastInDim S850000 ![] bcast_S_S850000 (constant S_ .f32 0x3F800000#32))

/-- deg ^ (-1/2) where the degree is positive, 0 elsewhere. -/
def dinvOf (d : EntryIdx F) : (⟨S50000, .f32⟩ : BufTy).Contents (Elt F) :=
  select (cmpf .ogt (degOf d) (broadcastInDim S50000 ![] bcast_S_S50000 (constant S_ .f32 0x00000000#32))) (Host.rsqrt (degOf d)) (broadcastInDim S50000 ![] bcast_S_S50000 (id (constant S_ .f32 0x00000000#32)))

/-- The weight of a list entry: dinv at its source times dinv at its target. -/
def normOf (s d : EntryIdx F) : EntryWt F :=
  mulf (Host.gather gather_S50000_S850000x1_S850000_n_0_n_n_0_1_1 (dinvOf d) (broadcastInDim S850000x1 ![0] bcast_S850000_S850000x1_0 (wrap s))) (Host.gather gather_S50000_S850000x1_S850000_n_0_n_n_0_1_1 (dinvOf d) (broadcastInDim S850000x1 ![0] bcast_S850000_S850000x1_0 (wrap d)))

/-- The weights of the edge list with its self-loops. -/
def norm (e : Edges F) : EntryWt F := normOf (src e) (dst e)

/-- Neighbour aggregation over given sources, targets and weights: row v of the result is the sum, over the entries j
    whose target is v, of the weight of j times row (source of j) of `h`. -/
def aggWith (h : Nodes F) (s d : EntryIdx F) (w : EntryWt F) : Nodes F :=
  Host.scatterAdd scatter_S50000x128_S850000x1_S850000x128_1_0_0_1 (broadcastInDim S50000x128 ![] bcast_S_S50000x128 (constant S_ .f32 0x00000000#32)) (broadcastInDim S850000x1 ![0] bcast_S850000_S850000x1_0 d) (mulf (Host.gather gather_S50000x128_S850000x1_S850000x128_1_0_n_n_0_1_1128 h (broadcastInDim S850000x1 ![0] bcast_S850000_S850000x1_0 (wrap s))) (broadcastInDim S850000x128 ![0, 1] bcast_S850000x1_S850000x128_0_1 (broadcastInDim S850000x1 ![0] bcast_S850000_S850000x1_0 w)))

/-- Neighbour aggregation over the edge list with its self-loops and the symmetric normalisation. -/
def agg (h : Nodes F) (e : Edges F) : Nodes F := aggWith h (src e) (dst e) (norm e)

/-- The linear map of the node features: row r of the result is row r of `A` times `W`. -/
def lin (A : Nodes F) (W : Mat F) : Nodes F :=
  Host.dotGeneral dot_S50000x128_S128x128_S50000x128_1_0_0_1_n_n none A W

/-- A bias as a one-row matrix. -/
def asRow (b : Bias F) : (⟨S1x128, .f32⟩ : BufTy).Contents (Elt F) := broadcastInDim S1x128 ![1] bcast_S128_S1x128_1 b

/-- A one-row matrix repeated down the 50000 rows. -/
def downRows (r : (⟨S1x128, .f32⟩ : BufTy).Contents (Elt F)) : Nodes F := broadcastInDim S50000x128 ![0, 1] bcast_S1x128_S50000x128_0_1 r

/-- max(·, 0), entry by entry. -/
def relu (A : Nodes F) : Nodes F :=
  maximumf A (broadcastInDim S50000x128 ![] bcast_S_S50000x128 (constant S_ .f32 0x00000000#32))

/-- The node output: two graph convolutions, a relu between them. -/
def nodeOut (x : Nodes F) (e : Edges F) (W1 : Mat F) (b1 : Bias F) (W2 : Mat F) (b2 : Bias F) : Nodes F :=
  addf (agg (lin (relu (addf (agg (lin x W1) e) (downRows (asRow b1)))) W2) e) (downRows (asRow b2))

/-- The linear map of the query features. -/
def linQ (A : Queries F) (W : Mat F) : Queries F :=
  Host.dotGeneral dot_S20000x128_S128x128_S20000x128_1_0_0_1_n_n none A W

/-- A one-row matrix repeated down the 20000 rows. -/
def downRowsQ (r : (⟨S1x128, .f32⟩ : BufTy).Contents (Elt F)) : Queries F := broadcastInDim S20000x128 ![0, 1] bcast_S1x128_S20000x128_0_1 r

/-- The query output: q · Wq + bq. -/
def quesOut (q : Queries F) (Wq : Mat F) (bq : Bias F) : Queries F :=
  addf (linQ q Wq) (downRowsQ (asRow bq))

end Cert.Gcn

end
-- ==== Proof.SpecAt.lean ====
/-
  The specification's dense operations read at one index, on the extended reals.

  * `lin A W` at (r, c) is the sum over k of A[r, k] · W[k, c]; the same for the query map `linQ`;
  * a bias made a row and repeated down the rows, at (r, c), is the bias at c;
  * the all-zero array of `relu`, at any index, is the real 0's bit pattern read as a number.
-/
import proofs.«107165_j16776142258488_1_alg».proof.Proof.Spec
import Idealize.ShloMosaic.Lib.Pipeline.Value
import Idealize.ShloMosaic.Lib.ValueIdx
import Idealize.ShloMosaic.PureOps.Ideal.Laws

noncomputable section

namespace Cert.Gcn

open Cert.ReferenceIdeal Cert.ReferenceIdeal.Gen Idealize.ShloMosaic

variable {F : FTy → Type} [FloatOps F]

/-! ## `lin` at an index -/

/-- Entry (r, k) of the left operand, for the output entry `i` = (r, c). -/
abbrev leftN (i : S50000x128.Idx) (k : Fin 128) : S50000x128.Idx := fun a => match a with
  | ⟨0, _⟩ => ⟨(i 0).val, (i 0).isLt⟩
  | ⟨1, _⟩ => ⟨k.val, k.isLt⟩
/-- Entry (k, c) of the right operand, for the output entry `i` = (r, c). -/
abbrev rightN (i : S50000x128.Idx) (k : Fin 128) : S128x128.Idx := fun a => match a with
  | ⟨0, _⟩ => ⟨k.val, k.isLt⟩
  | ⟨1, _⟩ => ⟨(i 1).val, (i 1).isLt⟩

theorem lhsN_0 (i : S50000x128.Idx) (q : dot_S50000x128_S128x128_S50000x128_1_0_0_1_n_n.contr.Idx) : (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem lhsN_1 (i : S50000x128.Idx) (q : dot_S50000x128_S128x128_S50000x128_1_0_0_1_n_n.contr.Idx) : (dot_S50000x128_S128x128_S50000x128_1_0_0_1_n_n.lhsIdx i q 1).val = (q ⟨0, by decide⟩).val :=
  dot_S50000x128_S128x128_S50000x128_1_0_0_1_n_n.lhsIdx_val_of_single rfl i q
theorem rhsN_0 (i : S50000x128.Idx) (q : dot_S50000x128_S128x128_S50000x128_1_0_0_1_n_n.contr.Idx) : (dot_S50000x128_S128x128_S50000x128_1_0_0_1_n_n.rhsIdx i q 0).val = (q ⟨0, by decide⟩).val :=
  dot_S50000x128_S128x128_S50000x128_1_0_0_1_n_n.rhsIdx_val_of_single rfl i q
theorem rhsN_1 (i : S50000x128.Idx) (q : dot_S50000x128_S128x128_S50000x128_1_0_0_1_n_n.contr.Idx) : (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- The whole-array product at (r, c): the sum over k of A[r, k] · W[k, c]. -/
theorem lin_apply (A : Nodes Ideal) (W : Mat Ideal) (i : S50000x128.Idx) :
    lin (F := Ideal) A W i = ∑ k : Fin 128, A (leftN i k) * W (rightN i k) := by
  unfold lin
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx i ((ValueIdx.contrEquiv1 dot_S50000x128_S128x128_S50000x128_1_0_0_1_n_n 128 rfl rfl).symm k) = leftN i k := funext fun a => Fin.ext (by
    match a with
    | ⟨0, _⟩ => exact lhsN_0 _ _
    | ⟨1, _⟩ => exact (lhsN_1 _ _).trans hk)
  have er : dot_S50000x128_S128x128_S50000x128_1_0_0_1_n_n.rhsIdx i ((ValueIdx.contrEquiv1 dot_S50000x128_S128x128_S50000x128_1_0_0_1_n_n 128 rfl rfl).symm k) = rightN i k := funext fun a => Fin.ext (by
    match a with
    | ⟨0, _⟩ => exact (rhsN_0 _ _).trans hk
    | ⟨1, _⟩ => exact rhsN_1 _ _)
  rw [el, er]

/-! ## `linQ` at an index -/

/-- Entry (r, k) of the left operand, for the output entry `i` = (r, c). -/
abbrev leftQ (i : S20000x128.Idx) (k : Fin 128) : S20000x128.Idx := fun a => match a with
  | ⟨0, _⟩ => ⟨(i 0).val, (i 0).isLt⟩
  | ⟨1, _⟩ => ⟨k.val, k.isLt⟩
/-- Entry (k, c) of the right operand, for the output entry `i` = (r, c). -/
abbrev rightQ (i : S20000x128.Idx) (k : Fin 128) : S128x128.Idx := fun a => match a with
  | ⟨0, _⟩ => ⟨k.val, k.isLt⟩
  | ⟨1, _⟩ => ⟨(i 1).val, (i 1).isLt⟩

theorem lhsQ_0 (i : S20000x128.Idx) (q : dot_S20000x128_S128x128_S20000x128_1_0_0_1_n_n.contr.Idx) : (dot_S20000x128_S128x128_S20000x128_1_0_0_1_n_n.lhsIdx i q 0).val = (i 0).val := by
  unfold DotDims.lhsIdx
  rw [dif_neg (show ¬(0 : Fin S20000x128.rank) ∈ dot_S20000x128_S128x128_S20000x128_1_0_0_1_n_n.lhsBatch by decide), dif_pos (show (0 : Fin S20000x128.rank) ∈ dot_S20000x128_S128x128_S20000x128_1_0_0_1_n_n.lhsNonContracting by decide)]
  rfl
theorem lhsQ_1 (i : S20000x128.Idx) (q : dot_S20000x128_S128x128_S20000x128_1_0_0_1_n_n.contr.Idx) : (dot_S20000x128_S128x128_S20000x128_1_0_0_1_n_n.lhsIdx i q 1).val = (q ⟨0, by decide⟩).val :=
  dot_S20000x128_S128x128_S20000x128_1_0_0_1_n_n.lhsIdx_val_of_single rfl i q
theorem rhsQ_0 (i : S20000x128.Idx) (q : dot_S20000x128_S128x128_S20000x128_1_0_0_1_n_n.contr.Idx) : (dot_S20000x128_S128x128_S20000x128_1_0_0_1_n_n.rhsIdx i q 0).val = (q ⟨0, by decide⟩).val :=
  dot_S20000x128_S128x128_S20000x128_1_0_0_1_n_n.rhsIdx_val_of_single rfl i q
theorem rhsQ_1 (i : S20000x128.Idx) (q : dot_S20000x128_S128x128_S20000x128_1_0_0_1_n_n.contr.Idx) : (dot_S20000x128_S128x128_S20000x128_1_0_0_1_n_n.rhsIdx i q 1).val = (i 1).val := by
  unfold DotDims.rhsIdx
  rw [dif_neg (show ¬(1 : Fin S128x128.rank) ∈ dot_S20000x128_S128x128_S20000x128_1_0_0_1_n_n.rhsBatch by decide), dif_pos (show (1 : Fin S128x128.rank) ∈ dot_S20000x128_S128x128_S20000x128_1_0_0_1_n_n.rhsNonContracting by decide)]
  rfl

/-- The whole-array product at (r, c): the sum over k of A[r, k] · W[k, c]. -/
theorem linQ_apply (A : Queries Ideal) (W : Mat Ideal) (i : S20000x128.Idx) :
    linQ (F := Ideal) A W i = ∑ k : Fin 128, A (leftQ i k) * W (rightQ i k) := by
  unfold linQ
  simp only [Host.dotGeneral]
  rw [Ideal.dotGeneral_apply, ← Equiv.sum_comp (ValueIdx.contrEquiv1 dot_S20000x128_S128x128_S20000x128_1_0_0_1_n_n 128 rfl rfl).symm]
  refine Finset.sum_congr rfl fun k _ => ?_
  have hk := ValueIdx.contrEquiv1_symm_val dot_S20000x128_S128x128_S20000x128_1_0_0_1_n_n 128 rfl rfl k
  have el : dot_S20000x128_S128x128_S20000x128_1_0_0_1_n_n.lhsIdx i ((ValueIdx.contrEquiv1 dot_S20000x128_S128x128_S20000x128_1_0_0_1_n_n 128 rfl rfl).symm k) = leftQ i k := funext fun a => Fin.ext (by
    match a with
    | ⟨0, _⟩ => exact lhsQ_0 _ _
    | ⟨1, _⟩ => exact (lhsQ_1 _ _).trans hk)
  have er : dot_S20000x128_S128x128_S20000x128_1_0_0_1_n_n.rhsIdx i ((ValueIdx.contrEquiv1 dot_S20000x128_S128x128_S20000x128_1_0_0_1_n_n 128 rfl rfl).symm k) = rightQ i k := funext fun a => Fin.ext (by
    match a with
    | ⟨0, _⟩ => exact (rhsQ_0 _ _).trans hk
    | ⟨1, _⟩ => exact rhsQ_1 _ _)
  rw [el, er]

/-! ## The biases and the zero of `relu` at an index -/

/-- The column of an index of a one-row matrix, as an index of the bias. -/
abbrev colOfRow (i : S1x128.Idx) : S128.Idx := fun a => match a with
  | ⟨0, _⟩ => ⟨(i 1).val, (i 1).isLt⟩

/-- A bias as a one-row matrix, at (0, c), is the bias at c. -/
theorem asRow_apply (b : Bias F) (i : S1x128.Idx) : asRow b i = b (colOfRow i) := by
  unfold asRow
  exact broadcastInDim_apply _ bcast_S128_S1x128_1 b i (colOfRow i) (fun a => match a with
    | ⟨0, _⟩ => by show (i 1).val = if (128 : Nat) = 1 then 0 else (i 1).val; rw [if_neg (by decide)])

/-- The first row's entry above an index of the node array. -/
abbrev topOf (i : S50000x128.Idx) : S1x128.Idx := fun a => match a with
  | ⟨0, _⟩ => ⟨0, Nat.one_pos⟩
  | ⟨1, _⟩ => ⟨(i 1).val, (i 1).isLt⟩

/-- A one-row matrix repeated down the rows, at (r, c), is the row at (0, c). -/
theorem downRows_apply (r : (⟨S1x128, .f32⟩ : BufTy).Contents (Elt F)) (i : S50000x128.Idx) : downRows r i = r (topOf i) := by
  unfold downRows
  exact broadcastInDim_apply _ bcast_S1x128_S50000x128_0_1 r i (topOf i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

/-- The first row's entry above an index of the query array. -/
abbrev topOfQ (i : S20000x128.Idx) : S1x128.Idx := fun a => match a with
  | ⟨0, _⟩ => ⟨0, Nat.one_pos⟩
  | ⟨1, _⟩ => ⟨(i 1).val, (i 1).isLt⟩

/-- A one-row matrix repeated down the query rows, at (r, c), is the row at (0, c). -/
theorem downRowsQ_apply (r : (⟨S1x128, .f32⟩ : BufTy).Contents (Elt F)) (i : S20000x128.Idx) : downRowsQ r i = r (topOfQ i) := by
  unfold downRowsQ
  exact broadcastInDim_apply _ bcast_S1x128_S20000x128_0_1 r i (topOfQ i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

/-- `relu` at an index: the larger of the entry and the zero pattern's value. -/
theorem relu_apply (A : Nodes F) (i : S50000x128.Idx) :
    relu A i = FloatOps.maximumf (A i) (FloatOps.ofBits .f32 0x00000000#32) := by
  unfold relu
  show FloatOps.maximumf (A i) (broadcastInDim S50000x128 ![] bcast_S_S50000x128 (constant (F := F) S_ .f32 0x00000000#32) i) = _
  rw [broadcastInDim_apply _ bcast_S_S50000x128 (constant (F := F) S_ .f32 0x00000000#32) i (fun a => a.elim0) (fun a => a.elim0)]
  rfl

/-- A reshape of a bias to one row is the bias made a row: both put entry c at (0, c). -/
theorem reshape_eq_asRow (b : Bias F) (h : S128.ShapeCasts S1x128) : shapeCast S1x128 b h = asRow b := by
  funext i
  rw [asRow_apply]
  refine shapeCast_apply b h i (colOfRow i) ?_
  rw [Shape.rowMajor_val_one, Shape.rowMajor_val_two]
  have h0 : (i 0).val < 1 := (i 0).isLt
  show (i 1).val = (i 0).val * 128 + (i 1).val
  omega

end Cert.Gcn

end
-- ==== Proof.Rows.lean ====
/-
  A matrix product computed a block of rows at a time is the whole product, on the extended reals.

  The kernels multiply a block of consecutive rows (5000 node rows, or 4000 query rows) by the whole 128 × 128 weight
  matrix into a zero accumulator. At an output entry that is the sum over the 128 contraction indices of left · right,
  which is also what the whole-array product of the specification is at the corresponding entry of the whole array. No
  law of arithmetic is used: the two sums have the same terms in the same order.
-/
import proofs.«107165_j16776142258488_1_alg».proof.Proof.SpecAt
import proofs.«107165_j16776142258488_1_alg».proof.Proof.Gen.KernelIdeal
import Idealize.ShloMosaic.Lib.ValueIdx
import Idealize.ShloMosaic.PureOps.Ideal.Laws

noncomputable section

namespace Cert.Gcn

open Cert.ReferenceIdeal Cert.ReferenceIdeal.Gen Idealize.ShloMosaic

/-! ## Blocks of 5000 rows -/

/-- The block product's dimension record. -/
abbrev dN := Cert.KernelIdeal.dot_S5000x128_S128x128_S5000x128_1_0_0_1_n_n

/-- Entry (r, k) of the left operand, for the output entry `j` = (r, c). -/
abbrev lkN (j : Cert.KernelIdeal.S5000x128.Idx) (k : Fin 128) : Cert.KernelIdeal.S5000x128.Idx := fun a => match a with
  | ⟨0, _⟩ => ⟨(j 0).val, (j 0).isLt⟩
  | ⟨1, _⟩ => ⟨k.val, k.isLt⟩
/-- Entry (k, c) of the right operand, for the output entry `j` = (r, c). -/
abbrev rkN (j : Cert.KernelIdeal.S5000x128.Idx) (k : Fin 128) : Cert.KernelIdeal.S128x128.Idx := fun a => match a with
  | ⟨0, _⟩ => ⟨k.val, k.isLt⟩
  | ⟨1, _⟩ => ⟨(j 1).val, (j 1).isLt⟩

theorem klhsN_0 (j : Cert.KernelIdeal.S5000x128.Idx) (q : dN.contr.Idx) : (dN.lhsIdx j q 0).val = (j 0).val := by
  unfold DotDims.lhsIdx
  rw [dif_neg (show ¬(0 : Fin Cert.KernelIdeal.S5000x128.rank) ∈ dN.lhsBatch by decide), dif_pos (show (0 : Fin Cert.KernelIdeal.S5000x128.rank) ∈ dN.lhsNonContracting by decide)]
  rfl
theorem klhsN_1 (j : Cert.KernelIdeal.S5000x128.Idx) (q : dN.contr.Idx) : (dN.lhsIdx j q 1).val = (q ⟨0, by decide⟩).val :=
  dN.lhsIdx_val_of_single rfl j q
theorem krhsN_0 (j : Cert.KernelIdeal.S5000x128.Idx) (q : dN.contr.Idx) : (dN.rhsIdx j q 0).val = (q ⟨0, by decide⟩).val :=
  dN.rhsIdx_val_of_single rfl j q
theorem krhsN_1 (j : Cert.KernelIdeal.S5000x128.Idx) (q : dN.contr.Idx) : (dN.rhsIdx j q 1).val = (j 1).val := by
  unfold DotDims.rhsIdx
  rw [dif_neg (show ¬(1 : Fin Cert.KernelIdeal.S128x128.rank) ∈ dN.rhsBatch by decide), dif_pos (show (1 : Fin Cert.KernelIdeal.S128x128.rank) ∈ dN.rhsNonContracting by decide)]
  rfl

/-- A matrix product into the zero accumulator, at (r, c), is the sum over k of left[r, k] · right[k, c]. -/
theorem mmN_apply (L : FVec Ideal Cert.KernelIdeal.S5000x128 .bf16) (R : FVec Ideal Cert.KernelIdeal.S128x128 .bf16) (j : Cert.KernelIdeal.S5000x128.Idx) :
    matmul dN none L R (constant Cert.KernelIdeal.S5000x128 .f32 0x00000000#32) j = ∑ k : Fin 128, L (lkN j k) * R (rkN j k) := by
  simp only [matmul]
  rw [Ideal.matmul_constant_zero_apply, ← Equiv.sum_comp (ValueIdx.contrEquiv1 dN 128 rfl rfl).symm]
  refine Finset.sum_congr rfl fun k _ => ?_
  have hk := ValueIdx.contrEquiv1_symm_val dN 128 rfl rfl k
  have el : dN.lhsIdx j ((ValueIdx.contrEquiv1 dN 128 rfl rfl).symm k) = lkN j k := funext fun a => Fin.ext (by
    match a with
    | ⟨0, _⟩ => exact klhsN_0 _ _
    | ⟨1, _⟩ => exact (klhsN_1 _ _).trans hk)
  have er : dN.rhsIdx j ((ValueIdx.contrEquiv1 dN 128 rfl rfl).symm k) = rkN j k := funext fun a => Fin.ext (by
    match a with
    | ⟨0, _⟩ => exact (krhsN_0 _ _).trans hk
    | ⟨1, _⟩ => exact krhsN_1 _ _)
  rw [el, er]

/-- THE BLOCK LAW. If the left operand, before it is rounded to the matrix unit's input format (the identity here), is the rows r0, r0 + 1, … of `A` (entry (p, k) of it is entry (r0 + p, k) of
    `A`) and the right operand is `W`, then entry (p, c) of their product into zero is entry (r0 + p, c) of the whole
    product `A · W`: both are the sum over k of A[r0 + p, k] · W[k, c]. -/
theorem rowBlockN (A : Nodes Ideal) (W : Mat Ideal) (L : FVec Ideal Cert.KernelIdeal.S5000x128 .f32) (R : FVec Ideal Cert.KernelIdeal.S128x128 .f32)
    (hl hr : FTy.bits .bf16 < FTy.bits .f32) (r0 : ℕ)
    (hL : ∀ (y : Cert.KernelIdeal.S5000x128.Idx) (i : S50000x128.Idx), (i 0).val = r0 + (y 0).val → (i 1).val = (y 1).val → L y = A i)
    (hR : ∀ (y : Cert.KernelIdeal.S128x128.Idx) (z : S128x128.Idx), (z 0).val = (y 0).val → (z 1).val = (y 1).val → R y = W z)
    (j : Cert.KernelIdeal.S5000x128.Idx) (i : S50000x128.Idx) (hi0 : (i 0).val = r0 + (j 0).val) (hi1 : (i 1).val = (j 1).val) :
    matmul dN none (truncf .bf16 L hl) (truncf .bf16 R hr) (constant Cert.KernelIdeal.S5000x128 .f32 0x00000000#32) j = lin A W i := by
  rw [mmN_apply, lin_apply]
  refine Finset.sum_congr rfl fun k _ => ?_
  show L (lkN j k) * R (rkN j k) = _
  rw [hL (lkN j k) (leftN i k) hi0 rfl, hR (rkN j k) (rightN i k) rfl hi1]

/-! ## Blocks of 4000 rows -/

/-- The block product's dimension record. -/
abbrev dQ := Cert.KernelIdeal.dot_S4000x128_S128x128_S4000x128_1_0_0_1_n_n

/-- Entry (r, k) of the left operand, for the output entry `j` = (r, c). -/
abbrev lkQ (j : Cert.KernelIdeal.S4000x128.Idx) (k : Fin 128) : Cert.KernelIdeal.S4000x128.Idx := fun a => match a with
  | ⟨0, _⟩ => ⟨(j 0).val, (j 0).isLt⟩
  | ⟨1, _⟩ => ⟨k.val, k.isLt⟩
/-- Entry (k, c) of the right operand, for the output entry `j` = (r, c). -/
abbrev rkQ (j : Cert.KernelIdeal.S4000x128.Idx) (k : Fin 128) : Cert.KernelIdeal.S128x128.Idx := fun a => match a with
  | ⟨0, _⟩ => ⟨k.val, k.isLt⟩
  | ⟨1, _⟩ => ⟨(j 1).val, (j 1).isLt⟩

theorem klhsQ_0 (j : Cert.KernelIdeal.S4000x128.Idx) (q : dQ.contr.Idx) : (dQ.lhsIdx j q 0).val = (j 0).val := by
  unfold DotDims.lhsIdx
  rw [dif_neg (show ¬(0 : Fin Cert.KernelIdeal.S4000x128.rank) ∈ dQ.lhsBatch by decide), dif_pos (show (0 : Fin Cert.KernelIdeal.S4000x128.rank) ∈ dQ.lhsNonContracting by decide)]
  rfl
theorem klhsQ_1 (j : Cert.KernelIdeal.S4000x128.Idx) (q : dQ.contr.Idx) : (dQ.lhsIdx j q 1).val = (q ⟨0, by decide⟩).val :=
  dQ.lhsIdx_val_of_single rfl j q
theorem krhsQ_0 (j : Cert.KernelIdeal.S4000x128.Idx) (q : dQ.contr.Idx) : (dQ.rhsIdx j q 0).val = (q ⟨0, by decide⟩).val :=
  dQ.rhsIdx_val_of_single rfl j q
theorem krhsQ_1 (j : Cert.KernelIdeal.S4000x128.Idx) (q : dQ.contr.Idx) : (dQ.rhsIdx j q 1).val = (j 1).val := by
  unfold DotDims.rhsIdx
  rw [dif_neg (show ¬(1 : Fin Cert.KernelIdeal.S128x128.rank) ∈ dQ.rhsBatch by decide), dif_pos (show (1 : Fin Cert.KernelIdeal.S128x128.rank) ∈ dQ.rhsNonContracting by decide)]
  rfl

/-- A matrix product into the zero accumulator, at (r, c), is the sum over k of left[r, k] · right[k, c]. -/
theorem mmQ_apply (L : FVec Ideal Cert.KernelIdeal.S4000x128 .bf16) (R : FVec Ideal Cert.KernelIdeal.S128x128 .bf16) (j : Cert.KernelIdeal.S4000x128.Idx) :
    matmul dQ none L R (constant Cert.KernelIdeal.S4000x128 .f32 0x00000000#32) j = ∑ k : Fin 128, L (lkQ j k) * R (rkQ j k) := by
  simp only [matmul]
  rw [Ideal.matmul_constant_zero_apply, ← Equiv.sum_comp (ValueIdx.contrEquiv1 dQ 128 rfl rfl).symm]
  refine Finset.sum_congr rfl fun k _ => ?_
  have hk := ValueIdx.contrEquiv1_symm_val dQ 128 rfl rfl k
  have el : dQ.lhsIdx j ((ValueIdx.contrEquiv1 dQ 128 rfl rfl).symm k) = lkQ j k := funext fun a => Fin.ext (by
    match a with
    | ⟨0, _⟩ => exact klhsQ_0 _ _
    | ⟨1, _⟩ => exact (klhsQ_1 _ _).trans hk)
  have er : dQ.rhsIdx j ((ValueIdx.contrEquiv1 dQ 128 rfl rfl).symm k) = rkQ j k := funext fun a => Fin.ext (by
    match a with
    | ⟨0, _⟩ => exact (krhsQ_0 _ _).trans hk
    | ⟨1, _⟩ => exact krhsQ_1 _ _)
  rw [el, er]

/-- THE BLOCK LAW. If the left operand, before it is rounded to the matrix unit's input format (the identity here), is the rows r0, r0 + 1, … of `A` (entry (p, k) of it is entry (r0 + p, k) of
    `A`) and the right operand is `W`, then entry (p, c) of their product into zero is entry (r0 + p, c) of the whole
    product `A · W`: both are the sum over k of A[r0 + p, k] · W[k, c]. -/
theorem rowBlockQ (A : Queries Ideal) (W : Mat Ideal) (L : FVec Ideal Cert.KernelIdeal.S4000x128 .f32) (R : FVec Ideal Cert.KernelIdeal.S128x128 .f32)
    (hl hr : FTy.bits .bf16 < FTy.bits .f32) (r0 : ℕ)
    (hL : ∀ (y : Cert.KernelIdeal.S4000x128.Idx) (i : S20000x128.Idx), (i 0).val = r0 + (y 0).val → (i 1).val = (y 1).val → L y = A i)
    (hR : ∀ (y : Cert.KernelIdeal.S128x128.Idx) (z : S128x128.Idx), (z 0).val = (y 0).val → (z 1).val = (y 1).val → R y = W z)
    (j : Cert.KernelIdeal.S4000x128.Idx) (i : S20000x128.Idx) (hi0 : (i 0).val = r0 + (j 0).val) (hi1 : (i 1).val = (j 1).val) :
    matmul dQ none (truncf .bf16 L hl) (truncf .bf16 R hr) (constant Cert.KernelIdeal.S4000x128 .f32 0x00000000#32) j = linQ A W i := by
  rw [mmQ_apply, linQ_apply]
  refine Finset.sum_congr rfl fun k _ => ?_
  show L (lkQ j k) * R (rkQ j k) = _
  rw [hL (lkQ j k) (leftQ i k) hi0 rfl, hR (rkQ j k) (rightQ i k) rfl hi1]

end Cert.Gcn

end
-- ==== Proof.Payloads.lean ====
/-
  What each kernel body computes at one entry of its output block, on the extended reals, against the specification
  at the entry of the whole array that the block's entry is.

  Throughout, `x0` is a block of rows r0, r0 + 1, … of a whole array (entry (p, c) of the block is entry (r0 + p, c) of
  the array), the weight operand is the whole weight matrix and the bias operand is the whole one-row bias. Then

  * the plain product body gives the whole product's entry;
  * the bias–relu–product body gives the entry of (relu (G + bias rows)) · W, because adding the bias row and taking
    the maximum with 0 act entry by entry and so commute with cutting out rows;
  * the bias body gives the entry of G + bias rows;
  * the product–bias body gives the entry of q · Wq + bias rows.
  Rounding to the matrix unit's input format is the identity on the extended reals.
-/
import proofs.«107165_j16776142258488_1_alg».proof.Proof.Rows
import proofs.«107165_j16776142258488_1_alg».proof.Proof.Gen.KernelIdeal.Skeleton
import Idealize.ShloMosaic.Lib.Pipeline.Value

noncomputable section

namespace Cert.Gcn

open Cert.ReferenceIdeal Cert.ReferenceIdeal.Gen Idealize.ShloMosaic

/-- The one-row operand's entry in the column of a node-block entry. -/
abbrev underN (y : Cert.KernelIdeal.S5000x128.Idx) : Cert.KernelIdeal.S1x128.Idx := fun a => match a with
  | ⟨0, _⟩ => ⟨0, Nat.one_pos⟩
  | ⟨1, _⟩ => ⟨(y 1).val, (y 1).isLt⟩

/-- The one-row operand's entry in the column of a query-block entry. -/
abbrev underQ (y : Cert.KernelIdeal.S4000x128.Idx) : Cert.KernelIdeal.S1x128.Idx := fun a => match a with
  | ⟨0, _⟩ => ⟨0, Nat.one_pos⟩
  | ⟨1, _⟩ => ⟨(y 1).val, (y 1).isLt⟩

/-- A one-row vector repeated down a node block, at (p, c), is the row's entry (0, c). -/
theorem rowsN_apply (x : Vec Ideal Cert.KernelIdeal.S1x128 .f32) (hb : Cert.KernelIdeal.S1x128.Broadcasts Cert.KernelIdeal.S5000x128)
    (y : Cert.KernelIdeal.S5000x128.Idx) : broadcastTo Cert.KernelIdeal.S5000x128 x hb y = x (underN y) :=
  broadcastTo_apply x hb y (underN y) (fun a => match a with
    | ⟨0, _⟩ => by show 0 = if (1 : Nat) = 1 then 0 else (y 0).val; rw [if_pos rfl]
    | ⟨1, _⟩ => by show (y 1).val = if (128 : Nat) = 1 then 0 else (y 1).val; rw [if_neg (by decide)])

/-- A one-row vector repeated down a query block, at (p, c), is the row's entry (0, c). -/
theorem rowsQ_apply (x : Vec Ideal Cert.KernelIdeal.S1x128 .f32) (hb : Cert.KernelIdeal.S1x128.Broadcasts Cert.KernelIdeal.S4000x128)
    (y : Cert.KernelIdeal.S4000x128.Idx) : broadcastTo Cert.KernelIdeal.S4000x128 x hb y = x (underQ y) :=
  broadcastTo_apply x hb y (underQ y) (fun a => match a with
    | ⟨0, _⟩ => by show 0 = if (1 : Nat) = 1 then 0 else (y 0).val; rw [if_pos rfl]
    | ⟨1, _⟩ => by show (y 1).val = if (128 : Nat) = 1 then 0 else (y 1).val; rw [if_neg (by decide)])

/-- THE PRODUCT BODY: a block of rows of `A` times `W`, at (p, c), is (A · W) at (r0 + p, c). -/
theorem pay0_at (A : Nodes Ideal) (W : Mat Ideal)
    (x0 : Vec Ideal Cert.KernelIdeal.S5000x128 .f32) (x1 : Vec Ideal Cert.KernelIdeal.S128x128 .f32) (r0 : ℕ)
    (h0 : ∀ (y : Cert.KernelIdeal.S5000x128.Idx) (i : S50000x128.Idx), (i 0).val = r0 + (y 0).val → (i 1).val = (y 1).val → x0 y = A i)
    (h1 : ∀ (y : Cert.KernelIdeal.S128x128.Idx) (z : S128x128.Idx), (z 0).val = (y 0).val → (z 1).val = (y 1).val → x1 y = W z)
    (j : Cert.KernelIdeal.S5000x128.Idx) (i : S50000x128.Idx) (hi0 : (i 0).val = r0 + (j 0).val) (hi1 : (i 1).val = (j 1).val) :
    Cert.KernelIdeal.Gen.k0_pay1 (F := Ideal) x0 x1 j = lin A W i := by
  unfold Cert.KernelIdeal.Gen.k0_pay1
  exact rowBlockN A W x0 x1 Cert.KernelIdeal.Gen.bitsLt_bf16_f32 Cert.KernelIdeal.Gen.bitsLt_bf16_f32 r0 h0 h1 j i hi0 hi1

/-- Adding the bias row and taking the maximum with 0, at a block entry, is `relu (G + bias rows)` at the array entry. -/
theorem biasRelu_at (G : Nodes Ideal) (row : (⟨S1x128, .f32⟩ : BufTy).Contents (Elt Ideal))
    (x0 : Vec Ideal Cert.KernelIdeal.S5000x128 .f32) (x1 : Vec Ideal Cert.KernelIdeal.S1x128 .f32)
    (hc0 : Cert.KernelIdeal.S5000x128.ShapeCasts Cert.KernelIdeal.S5000x128) (hc1 : Cert.KernelIdeal.S1x128.ShapeCasts Cert.KernelIdeal.S1x128)
    (hb : Cert.KernelIdeal.S1x128.Broadcasts Cert.KernelIdeal.S5000x128)
    (y : Cert.KernelIdeal.S5000x128.Idx) (i : S50000x128.Idx) (e0 : x0 y = G i) (e1 : x1 (underN y) = row (topOf i)) :
    maximumf (addf (shapeCast Cert.KernelIdeal.S5000x128 x0 hc0) (broadcastTo Cert.KernelIdeal.S5000x128 (shapeCast Cert.KernelIdeal.S1x128 x1 hc1) hb))
        (broadcast Cert.KernelIdeal.S5000x128 (Scalar.ofBits (F := Ideal) .f32 0x00000000#32)) y
      = relu (addf G (downRows row)) i := by
  rw [relu_apply, shapeCast_self, shapeCast_self]
  show FloatOps.maximumf (FloatOps.addf (x0 y) (broadcastTo Cert.KernelIdeal.S5000x128 x1 hb y)) _ = FloatOps.maximumf (FloatOps.addf (G i) (downRows row i)) _
  rw [downRows_apply, rowsN_apply, e0, e1]
  rfl

/-- THE BIAS–RELU–PRODUCT BODY: at (p, c) it is ((relu (G + bias rows)) · W) at (r0 + p, c). -/
theorem pay1_at (G : Nodes Ideal) (row : (⟨S1x128, .f32⟩ : BufTy).Contents (Elt Ideal)) (W : Mat Ideal)
    (x0 : Vec Ideal Cert.KernelIdeal.S5000x128 .f32) (x1 : Vec Ideal Cert.KernelIdeal.S1x128 .f32) (x2 : Vec Ideal Cert.KernelIdeal.S128x128 .f32) (r0 : ℕ)
    (h0 : ∀ (y : Cert.KernelIdeal.S5000x128.Idx) (i : S50000x128.Idx), (i 0).val = r0 + (y 0).val → (i 1).val = (y 1).val → x0 y = G i)
    (h1 : ∀ (u : Cert.KernelIdeal.S1x128.Idx) (z : S1x128.Idx), (z 1).val = (u 1).val → x1 u = row z)
    (h2 : ∀ (y : Cert.KernelIdeal.S128x128.Idx) (z : S128x128.Idx), (z 0).val = (y 0).val → (z 1).val = (y 1).val → x2 y = W z)
    (j : Cert.KernelIdeal.S5000x128.Idx) (i : S50000x128.Idx) (hi0 : (i 0).val = r0 + (j 0).val) (hi1 : (i 1).val = (j 1).val) :
    Cert.KernelIdeal.Gen.k1_pay1 (F := Ideal) x0 x1 x2 j = lin (relu (addf G (downRows row))) W i := by
  have key := rowBlockN (relu (addf G (downRows row))) W
    (maximumf (addf (shapeCast Cert.KernelIdeal.S5000x128 x0 Cert.KernelIdeal.Gen.shapeCasts_S5000x128_S5000x128)
        (broadcastTo Cert.KernelIdeal.S5000x128 (shapeCast Cert.KernelIdeal.S1x128 x1 Cert.KernelIdeal.Gen.shapeCasts_S1x128_S1x128) Cert.KernelIdeal.Gen.broadcasts_S1x128_S5000x128))
        (broadcast Cert.KernelIdeal.S5000x128 (Scalar.ofBits (F := Ideal) .f32 0x00000000#32)))
    x2 Cert.KernelIdeal.Gen.bitsLt_bf16_f32 Cert.KernelIdeal.Gen.bitsLt_bf16_f32 r0
    (fun y i' a b => biasRelu_at G row x0 x1 Cert.KernelIdeal.Gen.shapeCasts_S5000x128_S5000x128 Cert.KernelIdeal.Gen.shapeCasts_S1x128_S1x128
        Cert.KernelIdeal.Gen.broadcasts_S1x128_S5000x128 y i' (h0 y i' a b) (h1 (underN y) (topOf i') b))
    h2 j i hi0 hi1
  unfold Cert.KernelIdeal.Gen.k1_pay1
  exact key

/-- THE BIAS BODY: at (p, c) it is (G + bias rows) at (r0 + p, c). -/
theorem pay2_at (G : Nodes Ideal) (row : (⟨S1x128, .f32⟩ : BufTy).Contents (Elt Ideal))
    (x0 : Vec Ideal Cert.KernelIdeal.S5000x128 .f32) (x1 : Vec Ideal Cert.KernelIdeal.S1x128 .f32) (r0 : ℕ)
    (h0 : ∀ (y : Cert.KernelIdeal.S5000x128.Idx) (i : S50000x128.Idx), (i 0).val = r0 + (y 0).val → (i 1).val = (y 1).val → x0 y = G i)
    (h1 : ∀ (u : Cert.KernelIdeal.S1x128.Idx) (z : S1x128.Idx), (z 1).val = (u 1).val → x1 u = row z)
    (j : Cert.KernelIdeal.S5000x128.Idx) (i : S50000x128.Idx) (hi0 : (i 0).val = r0 + (j 0).val) (hi1 : (i 1).val = (j 1).val) :
    Cert.KernelIdeal.Gen.k2_pay1 (F := Ideal) x0 x1 j = addf G (downRows row) i := by
  unfold Cert.KernelIdeal.Gen.k2_pay1
  show FloatOps.addf (shapeCast Cert.KernelIdeal.S5000x128 x0 _ j) (broadcastTo Cert.KernelIdeal.S5000x128 (shapeCast Cert.KernelIdeal.S1x128 x1 _) _ j)
    = FloatOps.addf (G i) (downRows row i)
  rw [shapeCast_self, shapeCast_self, downRows_apply, rowsN_apply, h0 j i hi0 hi1, h1 (underN j) (topOf i) hi1]

/-- THE PRODUCT–BIAS BODY: at (p, c) it is (q · Wq + bias rows) at (r0 + p, c). -/
theorem pay3_at (A : Queries Ideal) (W : Mat Ideal) (row : (⟨S1x128, .f32⟩ : BufTy).Contents (Elt Ideal))
    (x0 : Vec Ideal Cert.KernelIdeal.S4000x128 .f32) (x1 : Vec Ideal Cert.KernelIdeal.S128x128 .f32) (x2 : Vec Ideal Cert.KernelIdeal.S1x128 .f32) (r0 : ℕ)
    (h0 : ∀ (y : Cert.KernelIdeal.S4000x128.Idx) (i : S20000x128.Idx), (i 0).val = r0 + (y 0).val → (i 1).val = (y 1).val → x0 y = A i)
    (h1 : ∀ (y : Cert.KernelIdeal.S128x128.Idx) (z : S128x128.Idx), (z 0).val = (y 0).val → (z 1).val = (y 1).val → x1 y = W z)
    (h2 : ∀ (u : Cert.KernelIdeal.S1x128.Idx) (z : S1x128.Idx), (z 1).val = (u 1).val → x2 u = row z)
    (j : Cert.KernelIdeal.S4000x128.Idx) (i : S20000x128.Idx) (hi0 : (i 0).val = r0 + (j 0).val) (hi1 : (i 1).val = (j 1).val) :
    Cert.KernelIdeal.Gen.k3_pay1 (F := Ideal) x0 x1 x2 j = addf (linQ A W) (downRowsQ row) i := by
  unfold Cert.KernelIdeal.Gen.k3_pay1
  refine congrArg₂ FloatOps.addf (rowBlockQ A W x0 x1 Cert.KernelIdeal.Gen.bitsLt_bf16_f32 Cert.KernelIdeal.Gen.bitsLt_bf16_f32 r0 h0 h1 j i hi0 hi1) ?_
  show broadcastTo Cert.KernelIdeal.S4000x128 (shapeCast Cert.KernelIdeal.S1x128 x2 _) _ j = downRowsQ row i
  rw [shapeCast_self, downRowsQ_apply, rowsQ_apply, h2 (underQ j) (topOfQ i) hi1]

end Cert.Gcn

end
-- ==== Proof.Region0.lean ====
/-
  The first region: the node features times W1, 5000 rows at a time.

  The grid has ten points. Point t reads rows 5000·t … 5000·t + 4999 of the feature array and the whole weight matrix, and
  writes the same rows of the result. By the block law each written entry is the whole product's entry, and the ten row
  blocks cover all 50000 rows, so whatever the arrays hold when the region is entered, the result array ends holding
  the whole product `lin x W` of what the two operand arrays held.
-/
import proofs.«107165_j16776142258488_1_alg».proof.Proof.Payloads
import proofs.«107165_j16776142258488_1_alg».proof.Proof.Gen.KernelIdeal.Frame
import Idealize.ShloMosaic.Lib.Pipeline.Value

set_option maxRecDepth 16384

noncomputable section

namespace Cert.KernelIdeal.Whole

open Cert.KernelIdeal Cert.KernelIdeal.Gen
open Idealize.ShloMosaic Idealize.ShloMosaic.TcCoe Idealize.SL.Sem
open Idealize.ShloMosaic.Pipeline (Dat Cfg Window)

-- the TensorCore's buffer contents when the region is entered
variable (V : (c : Dev nD) → (b : Ref sig .tc) → Buf (Elt Ideal) ((c : Thread nD τ).loc b))

theorem hz0 : (![0, 0] : Fin 2 → Nat) = fun _ => 0 := funext fun a => by fin_cases a <;> rfl

/-- The index maps over the grid: the row-blocked windows are at block (t, 0), the weight window at block (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product. -/
theorem flushed0 (c : Dev nD) (t : Fin cfg0.N) :
    (dat0 V c).flushed 2 t = ((cfg0.win 2).blk t).view.read (Elt Ideal) (Cert.Gcn.lin (V c main_arg0) (V c main_arg3)) := by
  show (cfg0.win 2).cut (grid0.coords t) ((dat0 V c).after 2 t) = _
  rw [after0_2]
  unfold out0_2
  rw [View.canon_unit_zero hz0]
  simp only [View.ld_unit_zero (S := S5000x128) hz0, View.ld_unit_zero (S := S128x128) hz0]
  obtain ⟨e00, e01, e10, e11, e20, e21⟩ := idx0 t
  funext j
  show k0_pay1 (iblk0 V c 0 t) (iblk0 V c 1 t) j = Cert.Gcn.lin (V c main_arg0) (V c main_arg3) (((cfg0.win 2).blk t).view.emb j)
  refine Cert.Gcn.pay0_at (V c main_arg0) (V c main_arg3) (iblk0 V c 0 t) (iblk0 V c 1 t) (t.val * 5000) ?_ ?_ j _ ?_ ?_
  · intro y i a b
    show V c main_arg0 (((cfg0.win 0).blk t).view.emb y) = V c main_arg0 i
    refine congrArg _ (funext fun a' => Fin.ext ?_)
    match a' with
    | ⟨0, _⟩ => show win0_0.index t (0 : Fin 2) * 5000 + 1 * (y 0).val = (i 0).val; omega
    | ⟨1, _⟩ => show win0_0.index t (1 : Fin 2) * 128 + 1 * (y 1).val = (i 1).val; omega
  · intro y z a b
    show V c main_arg3 (((cfg0.win 1).blk t).view.emb y) = V c main_arg3 z
    refine congrArg _ (funext fun a' => Fin.ext ?_)
    match a' with
    | ⟨0, _⟩ => show win0_1.index t (0 : Fin 2) * 128 + 1 * (y 0).val = (z 0).val; omega
    | ⟨1, _⟩ => show win0_1.index t (1 : Fin 2) * 128 + 1 * (y 1).val = (z 1).val; omega
  · show win0_2.index t (0 : Fin 2) * 5000 + 1 * (j 0).val = t.val * 5000 + (j 0).val; omega
  · show win0_2.index t (1 : Fin 2) * 128 + 1 * (j 1).val = (j 1).val; omega

/-- An index of the result array is in point `t`'s block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Row r of the result lies in the block of point r / 5000. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : grid0.N = 10 := N_0
  obtain ⟨t, ht⟩ : ∃ t : Fin cfg0.N, t.val = (i 0).val / 5000 := ⟨⟨(i 0).val / 5000, by show _ < grid0.N; rw [hN]; omega⟩, rfl⟩
  obtain ⟨-, -, -, -, e20, e21⟩ := idx0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE RESULT ARRAY after the region: the whole product of what the operand arrays held at entry. -/
theorem final0 (c : Dev nD) : (dat0 V c).arrAt 2 cfg0.N = Cert.Gcn.lin (V c main_arg0) (V c main_arg3) :=
  (dat0 V c).arrAt_eq_of_cover 2 (Cert.Gcn.lin (V c main_arg0) (V c main_arg3)) (fun t _ => flushed0 V c t) cover0

end Cert.KernelIdeal.Whole

end
-- ==== Proof.Region1.lean ====
/-
  The second region: bias, relu, then the product with W2, 5000 rows at a time.

  Point t reads rows 5000·t … of the aggregated array, the whole one-row bias and the whole weight matrix, and writes the
  same rows of the result: (relu (G + bias rows)) · W at those rows. The ten blocks cover the result array, so it ends
  holding that whole function of what the three operand arrays held when the region was entered.
-/
import proofs.«107165_j16776142258488_1_alg».proof.Proof.Payloads
import proofs.«107165_j16776142258488_1_alg».proof.Proof.Gen.KernelIdeal.Frame
import Idealize.ShloMosaic.Lib.Pipeline.Value

set_option maxRecDepth 16384

noncomputable section

namespace Cert.KernelIdeal.Whole

open Cert.KernelIdeal Cert.KernelIdeal.Gen
open Idealize.ShloMosaic Idealize.ShloMosaic.TcCoe Idealize.SL.Sem
open Idealize.ShloMosaic.Pipeline (Dat Cfg Window)

-- the TensorCore's buffer contents when the region is entered
variable (V : (c : Dev nD) → (b : Ref sig .tc) → Buf (Elt Ideal) ((c : Thread nD τ).loc b))

theorem hz1 : (![0, 0] : Fin 2 → Nat) = fun _ => 0 := funext fun a => by fin_cases a <;> rfl

/-- The index maps over the grid: the row-blocked windows at block (t, 0), the bias and weight windows at block (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The region's result as a function of what its three operand arrays hold on entry. -/
def res1 (c : Dev nD) : Cert.Gcn.Nodes Ideal :=
  Cert.Gcn.lin (Cert.Gcn.relu (addf (V c main_v43) (Cert.Gcn.downRows (V c main_v44)))) (V c main_arg5)

/-- What point `t` writes back is block `t` of (relu (G + bias rows)) · W. -/
theorem flushed1 (c : Dev nD) (t : Fin cfg1.N) :
    (dat1 V c).flushed 3 t = ((cfg1.win 3).blk t).view.read (Elt Ideal) (res1 V c) := by
  show (cfg1.win 3).cut (grid1.coords t) ((dat1 V c).after 3 t) = _
  rw [after1_3]
  unfold out1_3
  rw [View.canon_unit_zero hz1]
  simp only [View.ld_unit_zero (S := S5000x128) hz1, View.ld_unit_zero (S := S1x128) hz1, View.ld_unit_zero (S := S128x128) hz1]
  have ho := idx1 t
  funext j
  show k1_pay1 (iblk1 V c 0 t) (iblk1 V c 1 t) (iblk1 V c 2 t) j = res1 V c (((cfg1.win 3).blk t).view.emb j)
  unfold res1
  refine Cert.Gcn.pay1_at (V c main_v43) (V c main_v44) (V c main_arg5) (iblk1 V c 0 t) (iblk1 V c 1 t) (iblk1 V c 2 t) (t.val * 5000) ?_ ?_ ?_ j _ ?_ ?_
  · intro y i a b
    show V c main_v43 (((cfg1.win 0).blk t).view.emb y) = V c main_v43 i
    refine congrArg _ (funext fun a' => Fin.ext ?_)
    match a' with
    | ⟨0, _⟩ => show win1_0.index t (0 : Fin 2) * 5000 + 1 * (y 0).val = (i 0).val; omega
    | ⟨1, _⟩ => show win1_0.index t (1 : Fin 2) * 128 + 1 * (y 1).val = (i 1).val; omega
  · intro u z b
    show V c main_v44 (((cfg1.win 1).blk t).view.emb u) = V c main_v44 z
    refine congrArg _ (funext fun a' => Fin.ext ?_)
    have hu : (u 0).val < 1 := (u 0).isLt
    have hz : (z 0).val < 1 := (z 0).isLt
    match a' with
    | ⟨0, _⟩ => show win1_1.index t (0 : Fin 2) * 1 + 1 * (u 0).val = (z 0).val; omega
    | ⟨1, _⟩ => show win1_1.index t (1 : Fin 2) * 128 + 1 * (u 1).val = (z 1).val; omega
  · intro y z a b
    show V c main_arg5 (((cfg1.win 2).blk t).view.emb y) = V c main_arg5 z
    refine congrArg _ (funext fun a' => Fin.ext ?_)
    match a' with
    | ⟨0, _⟩ => show win1_2.index t (0 : Fin 2) * 128 + 1 * (y 0).val = (z 0).val; omega
    | ⟨1, _⟩ => show win1_2.index t (1 : Fin 2) * 128 + 1 * (y 1).val = (z 1).val; omega
  · show win1_3.index t (0 : Fin 2) * 5000 + 1 * (j 0).val = t.val * 5000 + (j 0).val; omega
  · show win1_3.index t (1 : Fin 2) * 128 + 1 * (j 1).val = (j 1).val; omega

/-- An index of the result array is in point `t`'s block iff each coordinate is in the block's range on its axis. -/
theorem mem_blk1 (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v45).slice (win1_3.rect t)).set ↔ _
  rw [View.set_slice_whole, Rect.mem_set_unit]
  exact Iff.rfl

/-- Row r of the result lies in the block of point r / 5000. -/
theorem cover1 (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  have hN : grid1.N = 10 := N_1
  obtain ⟨t, ht⟩ : ∃ t : Fin cfg1.N, t.val = (i 0).val / 5000 := ⟨⟨(i 0).val / 5000, by show _ < grid1.N; rw [hN]; omega⟩, rfl⟩
  have ho := (idx1 t)
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- THE RESULT ARRAY after the region: (relu (G + bias rows)) · W of what the operand arrays held at entry. -/
theorem final1_res (c : Dev nD) : (dat1 V c).arrAt 3 cfg1.N = res1 V c :=
  (dat1 V c).arrAt_eq_of_cover 3 (res1 V c) (fun t _ => flushed1 V c t) cover1

/-- The same with the result spelt out. -/
theorem final1 (c : Dev nD) : (dat1 V c).arrAt 3 cfg1.N = Cert.Gcn.lin (Cert.Gcn.relu (addf (V c main_v43) (Cert.Gcn.downRows (V c main_v44)))) (V c main_arg5) :=
  final1_res V c

end Cert.KernelIdeal.Whole

end
-- ==== Proof.Region2.lean ====
/-
  The third region: the second layer's bias, 5000 rows at a time.

  Point t reads rows 5000·t … of the aggregated array and the whole one-row bias and writes the same rows of G + bias
  rows. The ten blocks cover the result array.
-/
import proofs.«107165_j16776142258488_1_alg».proof.Proof.Payloads
import proofs.«107165_j16776142258488_1_alg».proof.Proof.Gen.KernelIdeal.Frame
import Idealize.ShloMosaic.Lib.Pipeline.Value

set_option maxRecDepth 16384

noncomputable section

namespace Cert.KernelIdeal.Whole

open Cert.KernelIdeal Cert.KernelIdeal.Gen
open Idealize.ShloMosaic Idealize.ShloMosaic.TcCoe Idealize.SL.Sem
open Idealize.ShloMosaic.Pipeline (Dat Cfg Window)

-- the TensorCore's buffer contents when the region is entered
variable (V : (c : Dev nD) → (b : Ref sig .tc) → Buf (Elt Ideal) ((c : Thread nD τ).loc b))

theorem hz2 : (![0, 0] : Fin 2 → Nat) = fun _ => 0 := funext fun a => by fin_cases a <;> rfl

/-- The index maps over the grid: the row-blocked windows at block (t, 0), the bias window at block (0, 0). -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of G + bias rows. -/
theorem flushed2 (c : Dev nD) (t : Fin cfg2.N) :
    (dat2 V c).flushed 2 t = ((cfg2.win 2).blk t).view.read (Elt Ideal) (addf (V c main_v58) (Cert.Gcn.downRows (V c main_v59))) := by
  show (cfg2.win 2).cut (grid2.coords t) ((dat2 V c).after 2 t) = _
  rw [after2_2]
  unfold out2_2
  rw [View.canon_unit_zero hz2]
  simp only [View.ld_unit_zero (S := S5000x128) hz2, View.ld_unit_zero (S := S1x128) hz2]
  have ho := idx2 t
  funext j
  show k2_pay1 (iblk2 V c 0 t) (iblk2 V c 1 t) j = (addf (V c main_v58) (Cert.Gcn.downRows (V c main_v59))) (((cfg2.win 2).blk t).view.emb j)
  refine Cert.Gcn.pay2_at (V c main_v58) (V c main_v59) (iblk2 V c 0 t) (iblk2 V c 1 t) (t.val * 5000) ?_ ?_ j _ ?_ ?_
  · intro y i a b
    show V c main_v58 (((cfg2.win 0).blk t).view.emb y) = V c main_v58 i
    refine congrArg _ (funext fun a' => Fin.ext ?_)
    match a' with
    | ⟨0, _⟩ => show win2_0.index t (0 : Fin 2) * 5000 + 1 * (y 0).val = (i 0).val; omega
    | ⟨1, _⟩ => show win2_0.index t (1 : Fin 2) * 128 + 1 * (y 1).val = (i 1).val; omega
  · intro u z b
    show V c main_v59 (((cfg2.win 1).blk t).view.emb u) = V c main_v59 z
    refine congrArg _ (funext fun a' => Fin.ext ?_)
    have hu : (u 0).val < 1 := (u 0).isLt
    have hz : (z 0).val < 1 := (z 0).isLt
    match a' with
    | ⟨0, _⟩ => show win2_1.index t (0 : Fin 2) * 1 + 1 * (u 0).val = (z 0).val; omega
    | ⟨1, _⟩ => show win2_1.index t (1 : Fin 2) * 128 + 1 * (u 1).val = (z 1).val; omega
  · show win2_2.index t (0 : Fin 2) * 5000 + 1 * (j 0).val = t.val * 5000 + (j 0).val; omega
  · show win2_2.index t (1 : Fin 2) * 128 + 1 * (j 1).val = (j 1).val; omega

/-- An index of the result array is in point `t`'s block iff each coordinate is in the block's range on its axis. -/
theorem mem_blk2 (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v60).slice (win2_2.rect t)).set ↔ _
  rw [View.set_slice_whole, Rect.mem_set_unit]
  exact Iff.rfl

/-- Row r of the result lies in the block of point r / 5000. -/
theorem cover2 (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  have hN : grid2.N = 10 := N_2
  obtain ⟨t, ht⟩ : ∃ t : Fin cfg2.N, t.val = (i 0).val / 5000 := ⟨⟨(i 0).val / 5000, by show _ < grid2.N; rw [hN]; omega⟩, rfl⟩
  have ho := (idx2 t)
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- THE RESULT ARRAY after the region: G + bias rows of what the operand arrays held at entry. -/
theorem final2 (c : Dev nD) : (dat2 V c).arrAt 2 cfg2.N = addf (V c main_v58) (Cert.Gcn.downRows (V c main_v59)) :=
  (dat2 V c).arrAt_eq_of_cover 2 (addf (V c main_v58) (Cert.Gcn.downRows (V c main_v59))) (fun t _ => flushed2 V c t) cover2

end Cert.KernelIdeal.Whole

end
-- ==== Proof.Region3.lean ====
/-
  The fourth region: the query features times Wq plus the bias, 4000 rows at a time.

  The grid has five points. Point t reads rows 4000·t … of the query array, the whole weight matrix and the whole
  one-row bias, and writes the same rows of q · Wq + bias rows. The five blocks cover the 20000 rows.
-/
import proofs.«107165_j16776142258488_1_alg».proof.Proof.Payloads
import proofs.«107165_j16776142258488_1_alg».proof.Proof.Gen.KernelIdeal.Frame
import Idealize.ShloMosaic.Lib.Pipeline.Value

set_option maxRecDepth 16384

noncomputable section

namespace Cert.KernelIdeal.Whole

open Cert.KernelIdeal Cert.KernelIdeal.Gen
open Idealize.ShloMosaic Idealize.ShloMosaic.TcCoe Idealize.SL.Sem
open Idealize.ShloMosaic.Pipeline (Dat Cfg Window)

-- the TensorCore's buffer contents when the region is entered
variable (V : (c : Dev nD) → (b : Ref sig .tc) → Buf (Elt Ideal) ((c : Thread nD τ).loc b))

theorem hz3 : (![0, 0] : Fin 2 → Nat) = fun _ => 0 := funext fun a => by fin_cases a <;> rfl

/-- The index maps over the grid: the row-blocked windows at block (t, 0), the weight and bias windows at block (0, 0). -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point `t` writes back is block `t` of q · Wq + bias rows. -/
theorem flushed3 (c : Dev nD) (t : Fin cfg3.N) :
    (dat3 V c).flushed 3 t = ((cfg3.win 3).blk t).view.read (Elt Ideal) (addf (Cert.Gcn.linQ (V c main_arg2) (V c main_arg7)) (Cert.Gcn.downRowsQ (V c main_v61))) := by
  show (cfg3.win 3).cut (grid3.coords t) ((dat3 V c).after 3 t) = _
  rw [after3_3]
  unfold out3_3
  rw [View.canon_unit_zero hz3]
  simp only [View.ld_unit_zero (S := S4000x128) hz3, View.ld_unit_zero (S := S128x128) hz3, View.ld_unit_zero (S := S1x128) hz3]
  have ho := idx3 t
  funext j
  show k3_pay1 (iblk3 V c 0 t) (iblk3 V c 1 t) (iblk3 V c 2 t) j = (addf (Cert.Gcn.linQ (V c main_arg2) (V c main_arg7)) (Cert.Gcn.downRowsQ (V c main_v61))) (((cfg3.win 3).blk t).view.emb j)
  refine Cert.Gcn.pay3_at (V c main_arg2) (V c main_arg7) (V c main_v61) (iblk3 V c 0 t) (iblk3 V c 1 t) (iblk3 V c 2 t) (t.val * 4000) ?_ ?_ ?_ j _ ?_ ?_
  · intro y i a b
    show V c main_arg2 (((cfg3.win 0).blk t).view.emb y) = V c main_arg2 i
    refine congrArg _ (funext fun a' => Fin.ext ?_)
    match a' with
    | ⟨0, _⟩ => show win3_0.index t (0 : Fin 2) * 4000 + 1 * (y 0).val = (i 0).val; omega
    | ⟨1, _⟩ => show win3_0.index t (1 : Fin 2) * 128 + 1 * (y 1).val = (i 1).val; omega
  · intro y z a b
    show V c main_arg7 (((cfg3.win 1).blk t).view.emb y) = V c main_arg7 z
    refine congrArg _ (funext fun a' => Fin.ext ?_)
    match a' with
    | ⟨0, _⟩ => show win3_1.index t (0 : Fin 2) * 128 + 1 * (y 0).val = (z 0).val; omega
    | ⟨1, _⟩ => show win3_1.index t (1 : Fin 2) * 128 + 1 * (y 1).val = (z 1).val; omega
  · intro u z b
    show V c main_v61 (((cfg3.win 2).blk t).view.emb u) = V c main_v61 z
    refine congrArg _ (funext fun a' => Fin.ext ?_)
    have hu : (u 0).val < 1 := (u 0).isLt
    have hz : (z 0).val < 1 := (z 0).isLt
    match a' with
    | ⟨0, _⟩ => show win3_2.index t (0 : Fin 2) * 1 + 1 * (u 0).val = (z 0).val; omega
    | ⟨1, _⟩ => show win3_2.index t (1 : Fin 2) * 128 + 1 * (u 1).val = (z 1).val; omega
  · show win3_3.index t (0 : Fin 2) * 4000 + 1 * (j 0).val = t.val * 4000 + (j 0).val; omega
  · show win3_3.index t (1 : Fin 2) * 128 + 1 * (j 1).val = (j 1).val; omega

/-- An index of the result array is in point `t`'s block iff each coordinate is in the block's range on its axis. -/
theorem mem_blk3 (t : Fin cfg3.N) (i : S20000x128.Idx) :
    i ∈ ((cfg3.win 3).blk t).view.set ↔ ∀ a : Fin 2, win3_3.index t a * S4000x128.size a ≤ (i a).val ∧ (i a).val < win3_3.index t a * S4000x128.size a + S4000x128.size a := by
  show i ∈ ((View.whole main_v62).slice (win3_3.rect t)).set ↔ _
  rw [View.set_slice_whole, Rect.mem_set_unit]
  exact Iff.rfl

/-- Row r of the result lies in the block of point r / 4000. -/
theorem cover3 (i : S20000x128.Idx) : ∃ t : Fin cfg3.N, (cfg3.win 3).flush t = true ∧ i ∈ ((cfg3.win 3).blk t).view.set := by
  have hi0 : (i 0).val < 20000 := (i 0).isLt
  have hi1 : (i 1).val < 128 := (i 1).isLt
  have hN : grid3.N = 5 := N_3
  obtain ⟨t, ht⟩ : ∃ t : Fin cfg3.N, t.val = (i 0).val / 4000 := ⟨⟨(i 0).val / 4000, by show _ < grid3.N; rw [hN]; omega⟩, rfl⟩
  have ho := (idx3 t)
  refine ⟨t, flush3_3 t, ?_⟩
  rw [mem_blk3]
  intro a
  match a with
  | ⟨0, _⟩ => show win3_3.index t (0 : Fin 2) * 4000 ≤ (i 0).val ∧ (i 0).val < win3_3.index t (0 : Fin 2) * 4000 + 4000; omega
  | ⟨1, _⟩ => show win3_3.index t (1 : Fin 2) * 128 ≤ (i 1).val ∧ (i 1).val < win3_3.index t (1 : Fin 2) * 128 + 128; omega

/-- THE RESULT ARRAY after the region: q · Wq + bias rows of what the operand arrays held at entry. -/
theorem final3 (c : Dev nD) : (dat3 V c).arrAt 3 cfg3.N = addf (Cert.Gcn.linQ (V c main_arg2) (V c main_arg7)) (Cert.Gcn.downRowsQ (V c main_v61)) :=
  (dat3 V c).arrAt_eq_of_cover 3 (addf (Cert.Gcn.linQ (V c main_arg2) (V c main_arg7)) (Cert.Gcn.downRowsQ (V c main_v61))) (fun t _ => flushed3 V c t) cover3

end Cert.KernelIdeal.Whole

end
-- ==== Proof.Flow.lean ====
/-
  What the kernel program's buffers hold at each boundary between its segments, as functions of the arguments.

  Reading the boundaries in order: the host operations before the first region leave the sources, the targets and the
  weights of the edge list (with its self-loops) in three buffers and touch no argument; the first region leaves x · W1;
  the host operations after it aggregate that array over the edge list and reshape the first bias to one row; the second
  region leaves (relu (aggregate + bias rows)) · W2; the host operations after it aggregate again and reshape the second
  bias; the third region adds the bias rows; one more reshape makes the query bias a row; the fourth region leaves
  q · Wq + bias rows. A buffer that a segment does not write keeps what it held, so each fact below is either one segment's
  computation over the facts of the boundary before it, or the same fact carried across a segment.
  The last two facts say that the two result buffers end at the specification's `quesOut` and `nodeOut`.
-/
import proofs.«107165_j16776142258488_1_alg».proof.Proof.Region0
import proofs.«107165_j16776142258488_1_alg».proof.Proof.Region1
import proofs.«107165_j16776142258488_1_alg».proof.Proof.Region2
import proofs.«107165_j16776142258488_1_alg».proof.Proof.Region3

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo
open Idealize.ShloMosaic.Pipeline (Dat Cfg Window)

/-! ## Each region's result over named operand contents -/

section Named
variable (V : (c : Dev nD) → (b : Ref sig .tc) → Buf (Elt Ideal) ((c : Thread nD τ).loc b)) (c : Dev nD)

theorem final0_of (a : Cert.Gcn.Nodes Ideal) (w : Cert.Gcn.Mat Ideal) (h0 : V c main_arg0 = a) (h1 : V c main_arg3 = w) :
    (dat0 V c).arrAt 2 cfg0.N = Cert.Gcn.lin a w := by subst h0 h1; exact final0 V c

theorem final1_of (g : Cert.Gcn.Nodes Ideal) (r : (⟨Cert.ReferenceIdeal.S1x128, .f32⟩ : BufTy).Contents (Elt Ideal)) (w : Cert.Gcn.Mat Ideal)
    (h0 : V c main_v43 = g) (h1 : V c main_v44 = r) (h2 : V c main_arg5 = w) :
    (dat1 V c).arrAt 3 cfg1.N = Cert.Gcn.lin (Cert.Gcn.relu (addf g (Cert.Gcn.downRows r))) w := by subst h0 h1 h2; exact final1 V c

theorem final2_of (g : Cert.Gcn.Nodes Ideal) (r : (⟨Cert.ReferenceIdeal.S1x128, .f32⟩ : BufTy).Contents (Elt Ideal))
    (h0 : V c main_v58 = g) (h1 : V c main_v59 = r) :
    (dat2 V c).arrAt 2 cfg2.N = addf g (Cert.Gcn.downRows r) := by subst h0 h1; exact final2 V c

theorem final3_of (a : Cert.Gcn.Queries Ideal) (w : Cert.Gcn.Mat Ideal) (r : (⟨Cert.ReferenceIdeal.S1x128, .f32⟩ : BufTy).Contents (Elt Ideal))
    (h0 : V c main_arg2 = a) (h1 : V c main_arg7 = w) (h2 : V c main_v61 = r) :
    (dat3 V c).arrAt 3 cfg3.N = addf (Cert.Gcn.linQ a w) (Cert.Gcn.downRowsQ r) := by subst h0 h1 h2; exact final3 V c

end Named

variable (m : (ℓ : Loc nD τ sig) → Buf (Elt Ideal) ℓ) (ρ : Dev nD → PrngReg) (c : Dev nD)

/-! ## Before the first region: the edge list's sources, targets and weights; the arguments untouched -/
theorem at3_arg0 : W3 m ρ c (Proc.devRef .tc main_arg0) = (m ((c : Thread nD τ).loc main_arg0)) := by
  show StableHlo.after hostOps0_2 (StableHlo.after hostOps0_1 (StableHlo.after hostOps0 (W0 m ρ c))) _ = _
  after_results_simp <;> rfl
theorem at3_arg3 : W3 m ρ c (Proc.devRef .tc main_arg3) = (m ((c : Thread nD τ).loc main_arg3)) := by
  show StableHlo.after hostOps0_2 (StableHlo.after hostOps0_1 (StableHlo.after hostOps0 (W0 m ρ c))) _ = _
  after_results_simp <;> rfl
theorem at3_arg2 : W3 m ρ c (Proc.devRef .tc main_arg2) = (m ((c : Thread nD τ).loc main_arg2)) := by
  show StableHlo.after hostOps0_2 (StableHlo.after hostOps0_1 (StableHlo.after hostOps0 (W0 m ρ c))) _ = _
  after_results_simp <;> rfl
theorem at3_arg4 : W3 m ρ c (Proc.devRef .tc main_arg4) = (m ((c : Thread nD τ).loc main_arg4)) := by
  show StableHlo.after hostOps0_2 (StableHlo.after hostOps0_1 (StableHlo.after hostOps0 (W0 m ρ c))) _ = _
  after_results_simp <;> rfl
theorem at3_arg5 : W3 m ρ c (Proc.devRef .tc main_arg5) = (m ((c : Thread nD τ).loc main_arg5)) := by
  show StableHlo.after hostOps0_2 (StableHlo.after hostOps0_1 (StableHlo.after hostOps0 (W0 m ρ c))) _ = _
  after_results_simp <;> rfl
theorem at3_arg6 : W3 m ρ c (Proc.devRef .tc main_arg6) = (m ((c : Thread nD τ).loc main_arg6)) := by
  show StableHlo.after hostOps0_2 (StableHlo.after hostOps0_1 (StableHlo.after hostOps0 (W0 m ρ c))) _ = _
  after_results_simp <;> rfl
theorem at3_arg7 : W3 m ρ c (Proc.devRef .tc main_arg7) = (m ((c : Thread nD τ).loc main_arg7)) := by
  show StableHlo.after hostOps0_2 (StableHlo.after hostOps0_1 (StableHlo.after hostOps0 (W0 m ρ c))) _ = _
  after_results_simp <;> rfl
theorem at3_arg8 : W3 m ρ c (Proc.devRef .tc main_arg8) = (m ((c : Thread nD τ).loc main_arg8)) := by
  show StableHlo.after hostOps0_2 (StableHlo.after hostOps0_1 (StableHlo.after hostOps0 (W0 m ρ c))) _ = _
  after_results_simp <;> rfl
theorem at3_v5 : W3 m ρ c (Proc.devRef .tc main_v5) = (Cert.Gcn.src (m ((c : Thread nD τ).loc main_arg1))) := by
  show StableHlo.after hostOps0_2 (StableHlo.after hostOps0_1 (StableHlo.after hostOps0 (W0 m ρ c))) _ = _
  after_results_simp <;> rfl
theorem at3_v6 : W3 m ρ c (Proc.devRef .tc main_v6) = (Cert.Gcn.dst (m ((c : Thread nD τ).loc main_arg1))) := by
  show StableHlo.after hostOps0_2 (StableHlo.after hostOps0_1 (StableHlo.after hostOps0 (W0 m ρ c))) _ = _
  after_results_simp <;> rfl

/-! The weights buffer, read in three steps: after the first stretch the degrees' comparison with zero and their inverse
    square roots; after the outlined `where` the masked inverse square root; after the last stretch the product of its
    values at each entry's source and target. -/
theorem at1_v5 : W1 m ρ c (Proc.devRef .tc main_v5) = (Cert.Gcn.src (m ((c : Thread nD τ).loc main_arg1))) := by
  show StableHlo.after hostOps0 (W0 m ρ c) _ = _
  after_results_simp <;> rfl
theorem at1_v6 : W1 m ρ c (Proc.devRef .tc main_v6) = (Cert.Gcn.dst (m ((c : Thread nD τ).loc main_arg1))) := by
  show StableHlo.after hostOps0 (W0 m ρ c) _ = _
  after_results_simp <;> rfl
theorem at1_v12 : W1 m ρ c (Proc.devRef .tc main_v12) = cmpf .ogt (Cert.Gcn.degOf (Cert.Gcn.dst (m ((c : Thread nD τ).loc main_arg1)))) (broadcastInDim Cert.ReferenceIdeal.S50000 ![] Cert.ReferenceIdeal.Gen.bcast_S_S50000 (constant (F := Ideal) Cert.ReferenceIdeal.S_ .f32 0x00000000#32)) := by
  show StableHlo.after hostOps0 (W0 m ρ c) _ = _
  after_results_simp <;> rfl
theorem at1_v13 : W1 m ρ c (Proc.devRef .tc main_v13) = Host.rsqrt (Cert.Gcn.degOf (Cert.Gcn.dst (m ((c : Thread nD τ).loc main_arg1)))) := by
  show StableHlo.after hostOps0 (W0 m ρ c) _ = _
  after_results_simp <;> rfl
theorem at1_cst_2 : W1 m ρ c (Proc.devRef .tc main_cst_2) = constant (F := Ideal) Cert.ReferenceIdeal.S_ .f32 0x00000000#32 := by
  show StableHlo.after hostOps0 (W0 m ρ c) _ = _
  after_results_simp <;> rfl
/-- The outlined `where`: the mask's choice between the second operand and the broadcast scalar, over any contents. -/
theorem where_eq (Wv : Valuation τ sig (Elt Ideal)) :
    StableHlo.after hostOps0_1 Wv (Proc.devRef .tc main_v14)
      = select (Wv (Proc.devRef .tc main_v12) : (⟨S50000, .i1⟩ : BufTy).Contents (Elt Ideal)) (Wv (Proc.devRef .tc main_v13) : (⟨S50000, .f32⟩ : BufTy).Contents (Elt Ideal))
          (broadcastInDim S50000 ![] bcast_S_S50000 (id (Wv (Proc.devRef .tc main_cst_2) : (⟨S_, .f32⟩ : BufTy).Contents (Elt Ideal)))) := by
  after_results_simp <;> rfl
theorem at2_v14 : W2 m ρ c (Proc.devRef .tc main_v14) = Cert.Gcn.dinvOf (Cert.Gcn.dst (m ((c : Thread nD τ).loc main_arg1))) := by
  refine (where_eq (W1 m ρ c)).trans ?_
  rw [at1_v12 m ρ c, at1_v13 m ρ c, at1_cst_2 m ρ c]
  rfl
theorem at2_v5 : W2 m ρ c (Proc.devRef .tc main_v5) = (Cert.Gcn.src (m ((c : Thread nD τ).loc main_arg1))) := by
  have h := at1_v5 m ρ c
  show StableHlo.after hostOps0_1 (W1 m ρ c) _ = _
  generalize W1 m ρ c = Wv at h ⊢
  after_results_simp
  exact h
theorem at2_v6 : W2 m ρ c (Proc.devRef .tc main_v6) = (Cert.Gcn.dst (m ((c : Thread nD τ).loc main_arg1))) := by
  have h := at1_v6 m ρ c
  show StableHlo.after hostOps0_1 (W1 m ρ c) _ = _
  generalize W1 m ρ c = Wv at h ⊢
  after_results_simp
  exact h
theorem at3_v29 : W3 m ρ c (Proc.devRef .tc main_v29) = (Cert.Gcn.norm (m ((c : Thread nD τ).loc main_arg1))) := by
  have h14 := at2_v14 m ρ c
  have h5 := at2_v5 m ρ c
  have h6 := at2_v6 m ρ c
  show StableHlo.after hostOps0_2 (W2 m ρ c) _ = _
  generalize W2 m ρ c = Wv at h14 h5 h6 ⊢
  after_results_simp
  rw [h14, h5, h6]
  rfl

/-! ## After the first region -/
theorem at4_v30 : W4 m ρ c (Proc.devRef .tc main_v30) = (Cert.Gcn.lin (m ((c : Thread nD τ).loc main_arg0)) (m ((c : Thread nD τ).loc main_arg3))) :=
  (W4_arr m ρ c 2).trans (final0_of (V3 m ρ) c _ _ (at3_arg0 m ρ c) (at3_arg3 m ρ c))
theorem at4_arg2 : W4 m ρ c (Proc.devRef .tc main_arg2) = (m ((c : Thread nD τ).loc main_arg2)) :=
  (W4_of_ne m ρ c main_arg2 (by decide)).trans (at3_arg2 m ρ c)
theorem at4_arg4 : W4 m ρ c (Proc.devRef .tc main_arg4) = (m ((c : Thread nD τ).loc main_arg4)) :=
  (W4_of_ne m ρ c main_arg4 (by decide)).trans (at3_arg4 m ρ c)
theorem at4_arg5 : W4 m ρ c (Proc.devRef .tc main_arg5) = (m ((c : Thread nD τ).loc main_arg5)) :=
  (W4_of_ne m ρ c main_arg5 (by decide)).trans (at3_arg5 m ρ c)
theorem at4_arg6 : W4 m ρ c (Proc.devRef .tc main_arg6) = (m ((c : Thread nD τ).loc main_arg6)) :=
  (W4_of_ne m ρ c main_arg6 (by decide)).trans (at3_arg6 m ρ c)
theorem at4_arg7 : W4 m ρ c (Proc.devRef .tc main_arg7) = (m ((c : Thread nD τ).loc main_arg7)) :=
  (W4_of_ne m ρ c main_arg7 (by decide)).trans (at3_arg7 m ρ c)
theorem at4_arg8 : W4 m ρ c (Proc.devRef .tc main_arg8) = (m ((c : Thread nD τ).loc main_arg8)) :=
  (W4_of_ne m ρ c main_arg8 (by decide)).trans (at3_arg8 m ρ c)
theorem at4_v5 : W4 m ρ c (Proc.devRef .tc main_v5) = (Cert.Gcn.src (m ((c : Thread nD τ).loc main_arg1))) :=
  (W4_of_ne m ρ c main_v5 (by decide)).trans (at3_v5 m ρ c)
theorem at4_v6 : W4 m ρ c (Proc.devRef .tc main_v6) = (Cert.Gcn.dst (m ((c : Thread nD τ).loc main_arg1))) :=
  (W4_of_ne m ρ c main_v6 (by decide)).trans (at3_v6 m ρ c)
theorem at4_v29 : W4 m ρ c (Proc.devRef .tc main_v29) = (Cert.Gcn.norm (m ((c : Thread nD τ).loc main_arg1))) :=
  (W4_of_ne m ρ c main_v29 (by decide)).trans (at3_v29 m ρ c)

/-! ## After the first aggregation -/
theorem at5_v43 : W5 m ρ c (Proc.devRef .tc main_v43) = (Cert.Gcn.agg (Cert.Gcn.lin (m ((c : Thread nD τ).loc main_arg0)) (m ((c : Thread nD τ).loc main_arg3))) (m ((c : Thread nD τ).loc main_arg1))) := by
  show StableHlo.after hostOps1 (W4 m ρ c) _ = _
  after_results_simp
  rw [at4_v30 m ρ c, at4_v5 m ρ c, at4_v6 m ρ c, at4_v29 m ρ c]
  rfl
theorem at5_v44 : W5 m ρ c (Proc.devRef .tc main_v44) = (Cert.Gcn.asRow (m ((c : Thread nD τ).loc main_arg4))) := by
  show StableHlo.after hostOps1 (W4 m ρ c) _ = _
  after_results_simp
  rw [at4_arg4 m ρ c]
  exact Cert.Gcn.reshape_eq_asRow _ _
theorem at5_arg2 : W5 m ρ c (Proc.devRef .tc main_arg2) = (m ((c : Thread nD τ).loc main_arg2)) := by
  show StableHlo.after hostOps1 (W4 m ρ c) _ = _
  after_results_simp
  exact at4_arg2 m ρ c
theorem at5_arg5 : W5 m ρ c (Proc.devRef .tc main_arg5) = (m ((c : Thread nD τ).loc main_arg5)) := by
  show StableHlo.after hostOps1 (W4 m ρ c) _ = _
  after_results_simp
  exact at4_arg5 m ρ c
theorem at5_arg6 : W5 m ρ c (Proc.devRef .tc main_arg6) = (m ((c : Thread nD τ).loc main_arg6)) := by
  show StableHlo.after hostOps1 (W4 m ρ c) _ = _
  after_results_simp
  exact at4_arg6 m ρ c
theorem at5_arg7 : W5 m ρ c (Proc.devRef .tc main_arg7) = (m ((c : Thread nD τ).loc main_arg7)) := by
  show StableHlo.after hostOps1 (W4 m ρ c) _ = _
  after_results_simp
  exact at4_arg7 m ρ c
theorem at5_arg8 : W5 m ρ c (Proc.devRef .tc main_arg8) = (m ((c : Thread nD τ).loc main_arg8)) := by
  show StableHlo.after hostOps1 (W4 m ρ c) _ = _
  after_results_simp
  exact at4_arg8 m ρ c
theorem at5_v5 : W5 m ρ c (Proc.devRef .tc main_v5) = (Cert.Gcn.src (m ((c : Thread nD τ).loc main_arg1))) := by
  show StableHlo.after hostOps1 (W4 m ρ c) _ = _
  after_results_simp
  exact at4_v5 m ρ c
theorem at5_v6 : W5 m ρ c (Proc.devRef .tc main_v6) = (Cert.Gcn.dst (m ((c : Thread nD τ).loc main_arg1))) := by
  show StableHlo.after hostOps1 (W4 m ρ c) _ = _
  after_results_simp
  exact at4_v6 m ρ c
theorem at5_v29 : W5 m ρ c (Proc.devRef .tc main_v29) = (Cert.Gcn.norm (m ((c : Thread nD τ).loc main_arg1))) := by
  show StableHlo.after hostOps1 (W4 m ρ c) _ = _
  after_results_simp
  exact at4_v29 m ρ c

/-! ## After the second region -/
theorem at6_v45 : W6 m ρ c (Proc.devRef .tc main_v45) = (Cert.Gcn.lin (Cert.Gcn.relu (addf (Cert.Gcn.agg (Cert.Gcn.lin (m ((c : Thread nD τ).loc main_arg0)) (m ((c : Thread nD τ).loc main_arg3))) (m ((c : Thread nD τ).loc main_arg1))) (Cert.Gcn.downRows (Cert.Gcn.asRow (m ((c : Thread nD τ).loc main_arg4)))))) (m ((c : Thread nD τ).loc main_arg5))) :=
  (W6_arr m ρ c 3).trans (final1_of (V5 m ρ) c _ _ _ (at5_v43 m ρ c) (at5_v44 m ρ c) (at5_arg5 m ρ c))
theorem at6_arg2 : W6 m ρ c (Proc.devRef .tc main_arg2) = (m ((c : Thread nD τ).loc main_arg2)) :=
  (W6_of_ne m ρ c main_arg2 (by decide)).trans (at5_arg2 m ρ c)
theorem at6_arg6 : W6 m ρ c (Proc.devRef .tc main_arg6) = (m ((c : Thread nD τ).loc main_arg6)) :=
  (W6_of_ne m ρ c main_arg6 (by decide)).trans (at5_arg6 m ρ c)
theorem at6_arg7 : W6 m ρ c (Proc.devRef .tc main_arg7) = (m ((c : Thread nD τ).loc main_arg7)) :=
  (W6_of_ne m ρ c main_arg7 (by decide)).trans (at5_arg7 m ρ c)
theorem at6_arg8 : W6 m ρ c (Proc.devRef .tc main_arg8) = (m ((c : Thread nD τ).loc main_arg8)) :=
  (W6_of_ne m ρ c main_arg8 (by decide)).trans (at5_arg8 m ρ c)
theorem at6_v5 : W6 m ρ c (Proc.devRef .tc main_v5) = (Cert.Gcn.src (m ((c : Thread nD τ).loc main_arg1))) :=
  (W6_of_ne m ρ c main_v5 (by decide)).trans (at5_v5 m ρ c)
theorem at6_v6 : W6 m ρ c (Proc.devRef .tc main_v6) = (Cert.Gcn.dst (m ((c : Thread nD τ).loc main_arg1))) :=
  (W6_of_ne m ρ c main_v6 (by decide)).trans (at5_v6 m ρ c)
theorem at6_v29 : W6 m ρ c (Proc.devRef .tc main_v29) = (Cert.Gcn.norm (m ((c : Thread nD τ).loc main_arg1))) :=
  (W6_of_ne m ρ c main_v29 (by decide)).trans (at5_v29 m ρ c)

/-! ## After the second aggregation -/
theorem at7_v58 : W7 m ρ c (Proc.devRef .tc main_v58) = (Cert.Gcn.agg (Cert.Gcn.lin (Cert.Gcn.relu (addf (Cert.Gcn.agg (Cert.Gcn.lin (m ((c : Thread nD τ).loc main_arg0)) (m ((c : Thread nD τ).loc main_arg3))) (m ((c : Thread nD τ).loc main_arg1))) (Cert.Gcn.downRows (Cert.Gcn.asRow (m ((c : Thread nD τ).loc main_arg4)))))) (m ((c : Thread nD τ).loc main_arg5))) (m ((c : Thread nD τ).loc main_arg1))) := by
  show StableHlo.after hostOps2 (W6 m ρ c) _ = _
  after_results_simp
  rw [at6_v45 m ρ c, at6_v5 m ρ c, at6_v6 m ρ c, at6_v29 m ρ c]
  rfl
theorem at7_v59 : W7 m ρ c (Proc.devRef .tc main_v59) = (Cert.Gcn.asRow (m ((c : Thread nD τ).loc main_arg6))) := by
  show StableHlo.after hostOps2 (W6 m ρ c) _ = _
  after_results_simp
  rw [at6_arg6 m ρ c]
  exact Cert.Gcn.reshape_eq_asRow _ _
theorem at7_arg2 : W7 m ρ c (Proc.devRef .tc main_arg2) = (m ((c : Thread nD τ).loc main_arg2)) := by
  show StableHlo.after hostOps2 (W6 m ρ c) _ = _
  after_results_simp
  exact at6_arg2 m ρ c
theorem at7_arg7 : W7 m ρ c (Proc.devRef .tc main_arg7) = (m ((c : Thread nD τ).loc main_arg7)) := by
  show StableHlo.after hostOps2 (W6 m ρ c) _ = _
  after_results_simp
  exact at6_arg7 m ρ c
theorem at7_arg8 : W7 m ρ c (Proc.devRef .tc main_arg8) = (m ((c : Thread nD τ).loc main_arg8)) := by
  show StableHlo.after hostOps2 (W6 m ρ c) _ = _
  after_results_simp
  exact at6_arg8 m ρ c

/-! ## After the third region -/
theorem at8_v60 : W8 m ρ c (Proc.devRef .tc main_v60) = (addf (Cert.Gcn.agg (Cert.Gcn.lin (Cert.Gcn.relu (addf (Cert.Gcn.agg (Cert.Gcn.lin (m ((c : Thread nD τ).loc main_arg0)) (m ((c : Thread nD τ).loc main_arg3))) (m ((c : Thread nD τ).loc main_arg1))) (Cert.Gcn.downRows (Cert.Gcn.asRow (m ((c : Thread nD τ).loc main_arg4)))))) (m ((c : Thread nD τ).loc main_arg5))) (m ((c : Thread nD τ).loc main_arg1))) (Cert.Gcn.downRows (Cert.Gcn.asRow (m ((c : Thread nD τ).loc main_arg6))))) :=
  (W8_arr m ρ c 2).trans (final2_of (V7 m ρ) c _ _ (at7_v58 m ρ c) (at7_v59 m ρ c))
theorem at8_arg2 : W8 m ρ c (Proc.devRef .tc main_arg2) = (m ((c : Thread nD τ).loc main_arg2)) :=
  (W8_of_ne m ρ c main_arg2 (by decide)).trans (at7_arg2 m ρ c)
theorem at8_arg7 : W8 m ρ c (Proc.devRef .tc main_arg7) = (m ((c : Thread nD τ).loc main_arg7)) :=
  (W8_of_ne m ρ c main_arg7 (by decide)).trans (at7_arg7 m ρ c)
theorem at8_arg8 : W8 m ρ c (Proc.devRef .tc main_arg8) = (m ((c : Thread nD τ).loc main_arg8)) :=
  (W8_of_ne m ρ c main_arg8 (by decide)).trans (at7_arg8 m ρ c)

/-! ## After the query bias is made a row -/
theorem at9_v61 : W9 m ρ c (Proc.devRef .tc main_v61) = (Cert.Gcn.asRow (m ((c : Thread nD τ).loc main_arg8))) := by
  show StableHlo.after hostOps3 (W8 m ρ c) _ = _
  after_results_simp
  rw [at8_arg8 m ρ c]
  exact Cert.Gcn.reshape_eq_asRow _ _
theorem at9_arg2 : W9 m ρ c (Proc.devRef .tc main_arg2) = (m ((c : Thread nD τ).loc main_arg2)) := by
  show StableHlo.after hostOps3 (W8 m ρ c) _ = _
  after_results_simp
  exact at8_arg2 m ρ c
theorem at9_arg7 : W9 m ρ c (Proc.devRef .tc main_arg7) = (m ((c : Thread nD τ).loc main_arg7)) := by
  show StableHlo.after hostOps3 (W8 m ρ c) _ = _
  after_results_simp
  exact at8_arg7 m ρ c
theorem at9_v60 : W9 m ρ c (Proc.devRef .tc main_v60) = (addf (Cert.Gcn.agg (Cert.Gcn.lin (Cert.Gcn.relu (addf (Cert.Gcn.agg (Cert.Gcn.lin (m ((c : Thread nD τ).loc main_arg0)) (m ((c : Thread nD τ).loc main_arg3))) (m ((c : Thread nD τ).loc main_arg1))) (Cert.Gcn.downRows (Cert.Gcn.asRow (m ((c : Thread nD τ).loc main_arg4)))))) (m ((c : Thread nD τ).loc main_arg5))) (m ((c : Thread nD τ).loc main_arg1))) (Cert.Gcn.downRows (Cert.Gcn.asRow (m ((c : Thread nD τ).loc main_arg6))))) := by
  show StableHlo.after hostOps3 (W8 m ρ c) _ = _
  after_results_simp
  exact at8_v60 m ρ c

/-! ## After the fourth region: the two results -/
theorem at10_v62 : W10 m ρ c (Proc.devRef .tc main_v62) = (addf (Cert.Gcn.linQ (m ((c : Thread nD τ).loc main_arg2)) (m ((c : Thread nD τ).loc main_arg7))) (Cert.Gcn.downRowsQ (Cert.Gcn.asRow (m ((c : Thread nD τ).loc main_arg8))))) :=
  (W10_arr m ρ c 3).trans (final3_of (V9 m ρ) c _ _ _ (at9_arg2 m ρ c) (at9_arg7 m ρ c) (at9_v61 m ρ c))
theorem at10_v60 : W10 m ρ c (Proc.devRef .tc main_v60) = (addf (Cert.Gcn.agg (Cert.Gcn.lin (Cert.Gcn.relu (addf (Cert.Gcn.agg (Cert.Gcn.lin (m ((c : Thread nD τ).loc main_arg0)) (m ((c : Thread nD τ).loc main_arg3))) (m ((c : Thread nD τ).loc main_arg1))) (Cert.Gcn.downRows (Cert.Gcn.asRow (m ((c : Thread nD τ).loc main_arg4)))))) (m ((c : Thread nD τ).loc main_arg5))) (m ((c : Thread nD τ).loc main_arg1))) (Cert.Gcn.downRows (Cert.Gcn.asRow (m ((c : Thread nD τ).loc main_arg6))))) :=
  (W10_of_ne m ρ c main_v60 (by decide)).trans (at9_v60 m ρ c)

/-- The query result buffer ends at the specification's query output of the arguments. -/
theorem ques_result : V10 m ρ c main_v62 = Cert.Gcn.quesOut (m ((c : Thread nD τ).loc main_arg2)) (m ((c : Thread nD τ).loc main_arg7)) (m ((c : Thread nD τ).loc main_arg8)) :=
  at10_v62 m ρ c

/-- The node result buffer ends at the specification's node output of the arguments. -/
theorem node_result : V10 m ρ c main_v60 = Cert.Gcn.nodeOut (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  at10_v60 m ρ c

end Cert.KernelIdeal.Whole

end
-- ==== Proof.RefFlow.lean ====
/-
  The reference computes the specification, by its own text.

  Its program is a straight line of 123 host operations, so every buffer ends at the fold of the operations' results over
  the launch contents. Read at the query result's buffer the fold is `quesOut q Wq bq`, and at the node result's buffer it
  is `nodeOut x e W1 b1 W2 b2`: the reference works the sources, targets and weights of the edge list out twice, once per
  layer, from the same edge list, and both copies are the specification's one `src`, `dst` and `norm`, so unfolding the
  definitions is the whole proof. No operation writes an argument.
-/
import proofs.«107165_j16776142258488_1_alg».proof.Proof.Spec
import proofs.«107165_j16776142258488_1_alg».proof.Proof.RefRun

noncomputable section

namespace Cert.Gcn.Ref

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

set_option maxRecDepth 8192 in
set_option maxHeartbeats 4000000 in
/-- The query result: q · Wq + bq. -/
theorem ques_eq (V : Valuation τ sig (Elt F)) : after (ops (F := F)) V (Proc.devRef .tc main_v94)
    = quesOut (V (Proc.devRef .tc main_arg2)) (V (Proc.devRef .tc main_arg7)) (V (Proc.devRef .tc main_arg8)) := by
  after_results_simp <;> rfl

set_option maxRecDepth 8192 in
set_option maxHeartbeats 40000000 in
/-- The node result: the two-layer convolution. -/
theorem nodes_eq (V : Valuation τ sig (Elt F)) : after (ops (F := F)) V (Proc.devRef .tc main_v90)
    = nodeOut (V (Proc.devRef .tc main_arg0)) (V (Proc.devRef .tc main_arg1)) (V (Proc.devRef .tc main_arg3)) (V (Proc.devRef .tc main_arg4)) (V (Proc.devRef .tc main_arg5)) (V (Proc.devRef .tc main_arg6)) := by
  after_results_simp <;> rfl

set_option maxRecDepth 8192 in
set_option maxHeartbeats 4000000 in
theorem arg0_eq (V : Valuation τ sig (Elt F)) : after (ops (F := F)) V (Proc.devRef .tc main_arg0) = V (Proc.devRef .tc main_arg0) := by
  after_results_simp <;> rfl

set_option maxRecDepth 8192 in
set_option maxHeartbeats 4000000 in
theorem arg1_eq (V : Valuation τ sig (Elt F)) : after (ops (F := F)) V (Proc.devRef .tc main_arg1) = V (Proc.devRef .tc main_arg1) := by
  after_results_simp <;> rfl

set_option maxRecDepth 8192 in
set_option maxHeartbeats 4000000 in
theorem arg2_eq (V : Valuation τ sig (Elt F)) : after (ops (F := F)) V (Proc.devRef .tc main_arg2) = V (Proc.devRef .tc main_arg2) := by
  after_results_simp <;> rfl

set_option maxRecDepth 8192 in
set_option maxHeartbeats 4000000 in
theorem arg3_eq (V : Valuation τ sig (Elt F)) : after (ops (F := F)) V (Proc.devRef .tc main_arg3) = V (Proc.devRef .tc main_arg3) := by
  after_results_simp <;> rfl

set_option maxRecDepth 8192 in
set_option maxHeartbeats 4000000 in
theorem arg4_eq (V : Valuation τ sig (Elt F)) : after (ops (F := F)) V (Proc.devRef .tc main_arg4) = V (Proc.devRef .tc main_arg4) := by
  after_results_simp <;> rfl

set_option maxRecDepth 8192 in
set_option maxHeartbeats 4000000 in
theorem arg5_eq (V : Valuation τ sig (Elt F)) : after (ops (F := F)) V (Proc.devRef .tc main_arg5) = V (Proc.devRef .tc main_arg5) := by
  after_results_simp <;> rfl

set_option maxRecDepth 8192 in
set_option maxHeartbeats 4000000 in
theorem arg6_eq (V : Valuation τ sig (Elt F)) : after (ops (F := F)) V (Proc.devRef .tc main_arg6) = V (Proc.devRef .tc main_arg6) := by
  after_results_simp <;> rfl

set_option maxRecDepth 8192 in
set_option maxHeartbeats 4000000 in
theorem arg7_eq (V : Valuation τ sig (Elt F)) : after (ops (F := F)) V (Proc.devRef .tc main_arg7) = V (Proc.devRef .tc main_arg7) := by
  after_results_simp <;> rfl

set_option maxRecDepth 8192 in
set_option maxHeartbeats 4000000 in
theorem arg8_eq (V : Valuation τ sig (Elt F)) : after (ops (F := F)) V (Proc.devRef .tc main_arg8) = V (Proc.devRef .tc main_arg8) := by
  after_results_simp <;> rfl

/-- The reference's run: every weakly fair execution terminates without a fault, the two results at the specification's
    functions of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v94) = quesOut (m ((c.tc : Thread nD τ).loc main_arg2)) (m ((c.tc : Thread nD τ).loc main_arg7)) (m ((c.tc : Thread nD τ).loc main_arg8))
      ∧ r.2.mem ((c.tc : Thread nD τ).loc main_v90) = nodeOut (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v94).trans (ques_eq (launchContents m c)), (h c main_v90).trans (nodes_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c)),
      (h c main_arg8).trans (arg8_eq (launchContents m c))⟩)
    (run_after m ρ)

end Cert.Gcn.Ref

end
-- ==== Proof.lean ====
/-
  A two-layer graph convolution with symmetric normalisation, and an independent affine map of the queries:
  the kernel program against its array-language reference, equal on the extended reals.

  Both programs compute, of the node features x, the edge list e, the queries q and the weights and biases,

      nodeOut = agg (relu (agg (x · W1) + b1) · W2) + b2        and        quesOut = q · Wq + bq,

  where `agg h` sums, into each node, its in-neighbours' rows of `h` (self-loops added) weighted by
  deg(source)^(-1/2) · deg(target)^(-1/2) (Proof/Spec.lean states every piece). The two programs differ only in HOW the
  dense parts are evaluated: the kernel program computes each of the three matrix products a block of rows at a time in a
  pipelined region (5000 node rows or 4000 query rows per grid point, the weight matrix whole, operands rounded to the
  matrix unit's input format — the identity on the extended reals), fuses the first bias and the relu into the second
  product's region, adds the second bias in a region of its own, and passes each bias as a one-row matrix; the reference
  applies whole-array operations. The sparse part — gathering rows by source, scaling, scatter-adding by target — is the
  same host operations in both, applied to arrays that the dense parts make equal, so it is carried along unopened.

  * Proof/Rows.lean: a product of a block of rows is that block of the whole product (same terms, same order: no law of
    arithmetic, so no finiteness, is needed). Proof/Payloads.lean: what each kernel body computes at one entry.
  * Proof/Region0 … Region3.lean: each region's result array, whole, as a function of what its operand arrays held on entry.
  * Proof/Flow.lean: the contents of the kernel program's buffers at every boundary between host operations and regions,
    ending with its two result buffers at `quesOut` and `nodeOut` of the arguments; Proof/KernelRun.lean: its run.
  * Proof/RefFlow.lean: the reference's two results are `quesOut` and `nodeOut` of the arguments, by unfolding.
  The three frames are the programs' runs with the results forgotten; the idealisation rewrote nothing, so `preserves` is
  trivially true.
-/
import proofs.«107165_j16776142258488_1_alg».proof.Defs
import proofs.«107165_j16776142258488_1_alg».proof.Proof.Gen.Kernel
import proofs.«107165_j16776142258488_1_alg».proof.Proof.Gen.Kernel.Frame
import proofs.«107165_j16776142258488_1_alg».proof.Proof.Gen.KernelIdeal
import proofs.«107165_j16776142258488_1_alg».proof.Proof.Gen.KernelIdeal.Frame
import proofs.«107165_j16776142258488_1_alg».proof.Proof.Gen.ReferenceIdeal
import proofs.«107165_j16776142258488_1_alg».proof.Proof.Gen.Pre_finite_inputs
import proofs.«107165_j16776142258488_1_alg».proof.Proof.KernelRun
import proofs.«107165_j16776142258488_1_alg».proof.Proof.Flow
import proofs.«107165_j16776142258488_1_alg».proof.Proof.RefFlow

noncomputable section

namespace Cert.Proof

open Idealize.ShloMosaic Idealize.ShloMosaic.TcCoe Idealize.SL.Sem

/-- The word-level kernel program terminates, faults nowhere and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- So does the idealized reference: its run with the two results forgotten. -/
theorem frame_ri : Cert.frame_ReferenceIdeal := fun m ρ _ =>
  (θ_run Cert.ReferenceIdeal.defs _ _).mono (fun _ h c => (h c).2.2) (Cert.Gcn.Ref.run (F := Ideal) m ρ)

/-- The idealisation rewrote no operation: there is nothing to preserve. -/
theorem preserves : Cert.preserves_Kernel_KernelIdeal := trivial

/-- From memories that agree on the arguments both idealized programs run, and both end with the query result at
    `quesOut q Wq bq` and the node result at `nodeOut x e W1 b1 W2 b2` of the arguments. -/
theorem algebraic : Cert.algebraic_KernelIdeal_ReferenceIdeal := by
  intro m ρ m' ρ' _ hagree
  refine ⟨fun c => Cert.Gcn.quesOut (m ((c.tc : Thread Cert.KernelIdeal.nD Cert.KernelIdeal.τ).loc Cert.KernelIdeal.main_arg2)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.Gcn.nodeOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Whole.ques_result m ρ c), (h c).2.1.trans (Cert.KernelIdeal.Whole.node_result m ρ c), (h c).2.2⟩)
      (Cert.KernelIdeal.Whole.run_results (F := Ideal) m ρ)
  · refine (θ_run Cert.ReferenceIdeal.defs _ _).mono (fun r h c => ?_) (Cert.Gcn.Ref.run (F := Ideal) m' ρ')
    obtain ⟨g0, g1, g2, g3, g4, g5, g6, g7, g8⟩ := hagree c
    refine ⟨(h c).1.trans ?_, (h c).2.1.trans ?_, (h c).2.2⟩
    · rw [g2, g7, g8]
    · rw [g0, g1, g3, g4, g5, g6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
